-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x8x8 : Shape := ⟨4, ![256, 512, 8, 8]⟩
abbrev S2000x32768 : Shape := ⟨2, ![2000, 32768]⟩
abbrev S_ : Shape := ⟨0, ![]⟩

class Facts : Prop where
  bcast_S_S256x512x8x8 : S_.BroadcastsInDim S256x512x8x8 (![] : Fin 0 → Fin S256x512x8x8.rank)
  reducesTo_S256x512x8x8_S_d0_1_2_3 : S256x512x8x8.ReducesTo [0, 1, 2, 3] S_
  h_S_ : 0 < S_.numel
  bcast_S_S2000x32768 : S_.BroadcastsInDim S2000x32768 (![] : Fin 0 → Fin S2000x32768.rank)
  reducesTo_S2000x32768_S_d0_1 : S2000x32768.ReducesTo [0, 1] S_

variable [Facts]

def fn {F : FTy → Type} [FloatOps F] (main_arg0 : FVec F S256x512x8x8 .f32) (main_arg1 : FVec F S2000x32768 .f32) : IVec S_ 1 :=
  let main_v0 : FVec F S256x512x8x8 .f32 := Host.absf main_arg0
  let main_cst : FVec F S_ .f32 := constant S_ .f32 0x7F800000#32
  let main_v1 : FVec F S256x512x8x8 .f32 := broadcastInDim S256x512x8x8 ![] bcast_S_S256x512x8x8 main_cst
  let main_v2 : IVec S256x512x8x8 1 := cmpf .olt main_v0 main_v1
  let main_c : IVec S_ 1 := constantI S_ 1 1#1
  let main_v3 : IVec S_ 1 := (fun x v => Host.reduce IntOp.andi x v reducesTo_S256x512x8x8_S_d0_1_2_3 h_S_) main_v2 main_c
  let main_v4 : FVec F S2000x32768 .f32 := Host.absf main_arg1
  let main_cst_0 : FVec F S_ .f32 := constant S_ .f32 0x7F800000#32
  let main_v5 : FVec F S2000x32768 .f32 := broadcastInDim S2000x32768 ![] bcast_S_S2000x32768 main_cst_0
  let main_v6 : IVec S2000x32768 1 := cmpf .olt main_v4 main_v5
  let main_c_1 : IVec S_ 1 := constantI S_ 1 1#1
  let main_v7 : IVec S_ 1 := (fun x v => Host.reduce IntOp.andi x v reducesTo_S2000x32768_S_d0_1 h_S_) main_v6 main_c_1
  let main_v8 : IVec S_ 1 := andi main_v3 main_v7
  main_v8
-- ==== Kernel.lean ====
abbrev S256x512x8x8 : Shape := ⟨4, ![256, 512, 8, 8]⟩
abbrev S2000x32768 : Shape := ⟨2, ![2000, 32768]⟩
abbrev S256x32768 : Shape := ⟨2, ![256, 32768]⟩
abbrev S2000x256 : Shape := ⟨2, ![2000, 256]⟩
abbrev S2000x1 : Shape := ⟨2, ![2000, 1]⟩
abbrev S256x256 : Shape := ⟨2, ![256, 256]⟩
abbrev S256x1024 : Shape := ⟨2, ![256, 1024]⟩
abbrev S1000x1024 : Shape := ⟨2, ![1000, 1024]⟩
abbrev S1000x256 : Shape := ⟨2, ![1000, 256]⟩
abbrev S1000x1 : Shape := ⟨2, ![1000, 1]⟩
abbrev S256x128 : Shape := ⟨2, ![256, 128]⟩
abbrev S256 : Shape := ⟨1, ![256]⟩
abbrev S256x1 : Shape := ⟨2, ![256, 1]⟩
abbrev S1000 : Shape := ⟨1, ![1000]⟩
abbrev S256x2000 : Shape := ⟨2, ![256, 2000]⟩
abbrev S1x2000 : Shape := ⟨2, ![1, 2000]⟩
abbrev S2000x1024 : Shape := ⟨2, ![2000, 1024]⟩

abbrev nBuf : Space → Nat
  | .hbm => 11
  | .vmem => 19
  | .smem => 0
  | _ => 0

abbrev bufTy : (tb : Table) → Fin (tcTables nBuf tb) → BufTy
  | .hbm, ⟨0, _⟩ => ⟨S256x512x8x8, .f32⟩
  | .hbm, ⟨1, _⟩ => ⟨S2000x32768, .f32⟩
  | .hbm, ⟨2, _⟩ => ⟨S256x32768, .f32⟩
  | .hbm, ⟨3, _⟩ => ⟨S2000x256, .f32⟩
  | .hbm, ⟨4, _⟩ => ⟨S2000x1, .f32⟩
  | .hbm, ⟨5, _⟩ => ⟨S256x256, .f32⟩
  | .hbm, ⟨6, _⟩ => ⟨S256x2000, .f32⟩
  | .hbm, ⟨7, _⟩ => ⟨S256x1, .f32⟩
  | .hbm, ⟨8, _⟩ => ⟨S256x2000, .f32⟩
  | .hbm, ⟨9, _⟩ => ⟨S256x32768, .f32⟩
  | .hbm, ⟨10, _⟩ => ⟨S256x512x8x8, .f32⟩
  | .local _ .vmem, ⟨0, _⟩ => ⟨S256x1024, .f32⟩
  | .local _ .vmem, ⟨1, _⟩ => ⟨S256x1024, .f32⟩
  | .local _ .vmem, ⟨2, _⟩ => ⟨S1000x1024, .f32⟩
  | .local _ .vmem, ⟨3, _⟩ => ⟨S1000x1024, .f32⟩
  | .local _ .vmem, ⟨4, _⟩ => ⟨S1000x256, .f32⟩
  | .local _ .vmem, ⟨5, _⟩ => ⟨S1000x256, .f32⟩
  | .local _ .vmem, ⟨6, _⟩ => ⟨S1000x1, .f32⟩
  | .local _ .vmem, ⟨7, _⟩ => ⟨S1000x1, .f32⟩
  | .local _ .vmem, ⟨8, _⟩ => ⟨S256x128, .f32⟩
  | .local _ .vmem, ⟨9, _⟩ => ⟨S256x128, .f32⟩
  | .local _ .vmem, ⟨10, _⟩ => ⟨S256x2000, .f32⟩
  | .local _ .vmem, ⟨11, _⟩ => ⟨S2000x1, .f32⟩
  | .local _ .vmem, ⟨12, _⟩ => ⟨S256x1, .f32⟩
  | .local _ .vmem, ⟨13, _⟩ => ⟨S256x2000, .f32⟩
  | .local _ .vmem, ⟨14, _⟩ => ⟨S256x2000, .f32⟩
  | .local _ .vmem, ⟨15, _⟩ => ⟨S2000x1024, .f32⟩
  | .local _ .vmem, ⟨16, _⟩ => ⟨S2000x1024, .f32⟩
  | .local _ .vmem, ⟨17, _⟩ => ⟨S256x1024, .f32⟩
  | .local _ .vmem, ⟨18, _⟩ => ⟨S256x1024, .f32⟩
  | _, _ => ⟨S256x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x2000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x2000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2000x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256x512x8x8_S256x32768 : S256x512x8x8.ShapeCasts S256x32768
  inb_S1000x256_S1000x256_0_0 : ∀ a, (![0, 0] : Fin 2 → Nat) a + S1000x256.size a ≤ S1000x256.size a
  h_S1000x256 : 0 < S1000x256.numel
  inb_S1000x1_S1000x1_0_0 : ∀ a, (![0, 0] : Fin 2 → Nat) a + S1000x1.size a ≤ S1000x1.size a
  h_S1000x1 : 0 < S1000x1.numel
  inb_S256x128_S256x128_0_0 : ∀ a, (![0, 0] : Fin 2 → Nat) a + S256x128.size a ≤ S256x128.size a
  h_S256x128 : 0 < S256x128.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1000x1024_S1000x1024_0_0 : ∀ a, (![0, 0] : Fin 2 → Nat) a + S1000x1024.size a ≤ S1000x1024.size a
  h_S1000x1024 : 0 < S1000x1024.numel
  shapeCasts_S256x128_S256x128 : S256x128.ShapeCasts S256x128
  reduces_S256x1024_S256 : S256x1024.Reduces [1] S256
  shapeCasts_S256_S256x1 : S256.ShapeCasts S256x1
  shapeCasts_S256x1_S256x1 : S256x1.ShapeCasts S256x1
  broadcasts_S256x1_S256x128 : S256x1.Broadcasts S256x128
  shapeCasts_S1000x1_S1000x1 : S1000x1.ShapeCasts S1000x1
  reduces_S1000x1024_S1000 : S1000x1024.Reduces [1] S1000
  shapeCasts_S1000_S1000x1 : S1000.ShapeCasts S1000x1
  bitsLt_bf16_f32 : FTy.bits .bf16 < FTy.bits .f32
  shapeCasts_S1000x256_S1000x256 : S1000x256.ShapeCasts S1000x256
  transposes_S2000x256_S256x2000_1_0 : S2000x256.Transposes [1, 0] S256x2000
  slices_S256x256_S256x1_0_0 : S256x256.Slices ![0, 0] S256x1
  inb_S256x2000_S256x2000_0_0 : ∀ a, (![0, 0] : Fin 2 → Nat) a + S256x2000.size a ≤ S256x2000.size a
  h_S256x2000 : 0 < S256x2000.numel
  shapeCasts_S256x2000_S256x2000 : S256x2000.ShapeCasts S256x2000
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S256x1_S256x1_0_0 : ∀ a, (![0, 0] : Fin 2 → Nat) a + S256x1.size a ≤ S256x1.size a
  h_S256x1 : 0 < S256x1.numel
  transposes_S2000x1_p1_0_S1x2000 : S2000x1.Transposes [1, 0] S1x2000
  broadcasts_S256x1_S256x2000 : S256x1.Broadcasts S256x2000
  shapeCasts_S1x2000_S1x2000 : S1x2000.ShapeCasts S1x2000
  broadcasts_S1x2000_S256x2000 : S1x2000.Broadcasts S256x2000
  reduces_S256x2000_S256 : S256x2000.Reduces [1] S256
  inb_S2000x1024_S2000x1024_0_0 : ∀ a, (![0, 0] : Fin 2 → Nat) a + S2000x1024.size a ≤ S2000x1024.size a
  h_S2000x1024 : 0 < S2000x1024.numel
  shapeCasts_S256x32768_S256x512x8x8 : S256x32768.ShapeCasts S256x512x8x8
  dot_S1000x1024_S256x1024_S1000x256_1_1_0_0_n_n_wf : DotDims.WF S1000x1024 S256x1024 S1000x256 [1] [1] [0] [0] [] []
  dot_S256x2000_S2000x1024_S256x1024_1_0_0_1_n_n_wf : DotDims.WF S256x2000 S2000x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x32768.size a
  hwx0_0 : ∀ i : grid0.Coords, EltTy.bits .f32 = 32 ∨ (Rect.block (s := S256x32768) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S2000x32768.size a
  hwx0_1 : ∀ i : grid0.Coords, EltTy.bits .f32 = 32 ∨ (Rect.block (s := S2000x32768) S1000x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S2000x256.size a
  hwx0_2 : ∀ i : grid0.Coords, EltTy.bits .f32 = 32 ∨ (Rect.block (s := S2000x256) S1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S2000x1.size a
  hwx0_3 : ∀ i : grid0.Coords, EltTy.bits .f32 = 32 ∨ (Rect.block (s := S2000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x256.size a
  hwx0_4 : ∀ i : grid0.Coords, EltTy.bits .f32 = 32 ∨ (Rect.block (s := S256x256) S256x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x2000.size a ≤ S256x2000.size a
  hwx1_0 : ∀ i : grid1.Coords, EltTy.bits .f32 = 32 ∨ (Rect.block (s := S256x2000) S256x2000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S2000x1.size a
  hwx1_1 : ∀ i : grid1.Coords, EltTy.bits .f32 = 32 ∨ (Rect.block (s := S2000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2000.size a ≤ S256x2000.size a
  hwx1_3 : ∀ i : grid1.Coords, EltTy.bits .f32 = 32 ∨ (Rect.block (s := S256x2000) S256x2000.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x2000.size a ≤ S256x2000.size a
  hwx2_0 : ∀ i : grid2.Coords, EltTy.bits .f32 = 32 ∨ (Rect.block (s := S256x2000) S256x2000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1024.size a ≤ S2000x32768.size a
  hwx2_1 : ∀ i : grid2.Coords, EltTy.bits .f32 = 32 ∨ (Rect.block (s := S2000x32768) S2000x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S256x32768.size a
  hwx2_2 : ∀ i : grid2.Coords, EltTy.bits .f32 = 32 ∨ (Rect.block (s := S256x32768) S256x1024.size (cc2_transform_2 i) (hinb2_2 i)).WholeWords (EltTy.packing .f32)

variable [Facts₀]

def dot_S1000x1024_S256x1024_S1000x256_1_1_0_0_n_n : DotDims S1000x1024 S256x1024 S1000x256 where
  lhsContracting := [1]
  rhsContracting := [1]
  lhsNonContracting := [0]
  rhsNonContracting := [0]
  lhsBatch := []
  rhsBatch := []
  wf := dot_S1000x1024_S256x1024_S1000x256_1_1_0_0_n_n_wf
def dot_S256x2000_S2000x1024_S256x1024_1_0_0_1_n_n : DotDims S256x2000 S2000x1024 S256x1024 where
  lhsContracting := [1]
  rhsContracting := [0]
  lhsNonContracting := [0]
  rhsNonContracting := [1]
  lhsBatch := []
  rhsBatch := []
  wf := dot_S256x2000_S2000x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S256x2000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S2000x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x2000.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S256x2000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x512x8x8 : Shape := ⟨4, ![256, 512, 8, 8]⟩
abbrev S2000x32768 : Shape := ⟨2, ![2000, 32768]⟩
abbrev S256x32768 : Shape := ⟨2, ![256, 32768]⟩
abbrev S_ : Shape := ⟨0, ![]⟩
abbrev S256 : Shape := ⟨1, ![256]⟩
abbrev S256x1 : Shape := ⟨2, ![256, 1]⟩
abbrev S2000 : Shape := ⟨1, ![2000]⟩
abbrev S2000x1 : Shape := ⟨2, ![2000, 1]⟩
abbrev S256x2000 : Shape := ⟨2, ![256, 2000]⟩

abbrev nBuf : Space → Nat
  | .hbm => 61
  | .vmem => 0
  | .smem => 0
  | _ => 0

abbrev bufTy : (tb : Table) → Fin (tcTables nBuf tb) → BufTy
  | .hbm, ⟨0, _⟩ => ⟨S256x512x8x8, .f32⟩
  | .hbm, ⟨1, _⟩ => ⟨S2000x32768, .f32⟩
  | .hbm, ⟨2, _⟩ => ⟨S256x32768, .f32⟩
  | .hbm, ⟨3, _⟩ => ⟨S256x32768, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x32768, .f32⟩
  | .hbm, ⟨12, _⟩ => ⟨S256x32768, .f32⟩
  | .hbm, ⟨13, _⟩ => ⟨S2000x32768, .f32⟩
  | .hbm, ⟨14, _⟩ => ⟨S_, .f32⟩
  | .hbm, ⟨15, _⟩ => ⟨S2000, .f32⟩
  | .hbm, ⟨16, _⟩ => ⟨S2000x1, .f32⟩
  | .hbm, ⟨17, _⟩ => ⟨S2000x1, .f32⟩
  | .hbm, ⟨18, _⟩ => ⟨S_, .f32⟩
  | .hbm, ⟨19, _⟩ => ⟨S2000x1, .f32⟩
  | .hbm, ⟨20, _⟩ => ⟨S2000x1, .f32⟩
  | .hbm, ⟨21, _⟩ => ⟨S2000x32768, .f32⟩
  | .hbm, ⟨22, _⟩ => ⟨S2000x32768, .f32⟩
  | .hbm, ⟨23, _⟩ => ⟨S256x2000, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256x1, .f32⟩
  | .hbm, ⟨30, _⟩ => ⟨S256x2000, .f32⟩
  | .hbm, ⟨31, _⟩ => ⟨S256x2000, .f32⟩
  | .hbm, ⟨32, _⟩ => ⟨S256x2000, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x2000, .f32⟩
  | .hbm, ⟨37, _⟩ => ⟨S256x2000, .f32⟩
  | .hbm, ⟨38, _⟩ => ⟨S256x2000, .f32⟩
  | .hbm, ⟨39, _⟩ => ⟨S_, .f32⟩
  | .hbm, ⟨40, _⟩ => ⟨S256x2000, .f32⟩
  | .hbm, ⟨41, _⟩ => ⟨S256x2000, .i1⟩
  | .hbm, ⟨42, _⟩ => ⟨S_, .f32⟩
  | .hbm, ⟨43, _⟩ => ⟨S256x2000, .f32⟩
  | .hbm, ⟨44, _⟩ => ⟨S256x2000, .f32⟩
  | .hbm, ⟨45, _⟩ => ⟨S_, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256x1, .f32⟩
  | .hbm, ⟨51, _⟩ => ⟨S256x2000, .f32⟩
  | .hbm, ⟨52, _⟩ => ⟨S256x2000, .f32⟩
  | .hbm, ⟨53, _⟩ => ⟨S256x2000, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S256x2000, .f32⟩
  | .hbm, ⟨58, _⟩ => ⟨S256x2000, .f32⟩
  | .hbm, ⟨59, _⟩ => ⟨S256x32768, .f32⟩
  | .hbm, ⟨60, _⟩ => ⟨S256x512x8x8, .f32⟩
  | _, _ => ⟨S256x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  shapeCasts_S256x512x8x8_S256x32768 : S256x512x8x8.ShapeCasts S256x32768
  reducesTo_S256x32768_S256_d1 : S256x32768.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x32768_0_1 : S256x1.BroadcastsInDim S256x32768 (![0, 1] : Fin 2 → Fin S256x32768.rank)
  reducesTo_S2000x32768_S2000_d1 : S2000x32768.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x32768_0_1 : S2000x1.BroadcastsInDim S2000x32768 (![0, 1] : Fin 2 → Fin S2000x32768.rank)
  reducesTo_S256x2000_S256_d1 : S256x2000.ReducesTo [1] S256
  bcast_S_S256 : S_.BroadcastsInDim S256 (![] : Fin 0 → Fin S256.rank)
  bcast_S256x1_S256x2000_0_1 : S256x1.BroadcastsInDim S256x2000 (![0, 1] : Fin 2 → Fin S256x2000.rank)
  bcast_S_S256x2000 : S_.BroadcastsInDim S256x2000 (![] : Fin 0 → Fin S256x2000.rank)
  shapeCasts_S256x32768_S256x512x8x8 : S256x32768.ShapeCasts S256x512x8x8
  dot_S256x32768_S2000x32768_S256x2000_1_1_0_0_n_n_wf : DotDims.WF S256x32768 S2000x32768 S256x2000 [1] [1] [0] [0] [] []
  dot_S256x2000_S2000x32768_S256x32768_1_0_0_1_n_n_wf : DotDims.WF S256x2000 S2000x32768 S256x32768 [1] [0] [0] [1] [] []

variable [Facts₀]

def dot_S256x32768_S2000x32768_S256x2000_1_1_0_0_n_n : DotDims S256x32768 S2000x32768 S256x2000 where
  lhsContracting := [1]
  rhsContracting := [1]
  lhsNonContracting := [0]
  rhsNonContracting := [0]
  lhsBatch := []
  rhsBatch := []
  wf := dot_S256x32768_S2000x32768_S256x2000_1_1_0_0_n_n_wf
def dot_S256x2000_S2000x32768_S256x32768_1_0_0_1_n_n : DotDims S256x2000 S2000x32768 S256x32768 where
  lhsContracting := [1]
  rhsContracting := [0]
  lhsNonContracting := [0]
  rhsNonContracting := [1]
  lhsBatch := []
  rhsBatch := []
  wf := dot_S256x2000_S2000x32768_S256x32768_1_0_0_1_n_n_wf

class Facts : Prop extends Facts₀ where

variable [Facts]
-- ==== Proof.KernelRun.lean ====
/-
  The idealized kernel's run with its results named. The program is three kernel regions among stretches of host
  operations; the contents of every buffer at each boundary are a fold from the launch memory (`W0` … `W6`: a host stretch
  applies its operations, a region leaves in each of its arrays what its write-backs leave). Every weakly fair execution
  terminates, nothing faulting, with each result array at the last boundary's contents `W6` and the two argument arrays
  as launched; what `W6` holds at the two results is read in the modules that follow.
-/
import proofs.«116774_j71399536329100_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last boundary's
    contents and the argument arrays as launched. -/
theorem run_results : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_v4) = W6 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v6 (by decide)), h c _ (mem_uc main_v4 (by decide)),
       (h c _ (mem_uc main_arg0 (by decide))).trans (W6_main_arg0 m ρ c),
       (h c _ (mem_uc main_arg1 (by decide))).trans (W6_main_arg1 m ρ c)⟩)

end Cert.KernelIdeal.Results

end
-- ==== Proof.Region0Pieces.lean ====
/-
  The first kernel region's body, case by case, as values.

  The body accumulates three running sums into its output blocks — the raw inner products of memory rows with feature rows,
  the memory rows' sums of squares and the feature rows' sums of squares — over the grid's second coordinate. At a point
  where that coordinate is zero (case A) it first stores zeros and then adds this point's contribution to the zeros it reads
  back; at every other point (case B) it adds the contribution to what the previous point left. Each lemma says that what a
  case leaves in an output block is the body's pure update of the loaded blocks: the covering store's value, its loads
  reading whole blocks.
-/
import proofs.«116774_j71399536329100_2_alg».proof.Proof.Gen.KernelIdeal.Frame
import Idealize.ShloMosaic.Lib.Pipeline.Value
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- Case B, the raw inner products: what was there plus this block's product. -/
theorem out_B_2 (c : Dev nD) (i : grid0.Coords) (a2 : Memref sig .tc .vmem S256x1024 .f32) (h2 : a2.IsWhole) (a3 : Memref sig .tc .vmem S1000x1024 .f32) (h3 : a3.IsWhole) (a4 : Memref sig .tc .vmem S1000x256 .f32) (h4 : a4.IsWhole) (a5 : Memref sig .tc .vmem S1000x1 .f32) (h5 : a5.IsWhole) (a6 : Memref sig .tc .vmem S256x128 .f32) (h6 : a6.IsWhole) (hc : ¬cond0_0 i)
    (x0 : Vec F S256x1024 .f32) (x1 : Vec F S1000x1024 .f32) (xo2 : Vec F S1000x256 .f32) (xo3 : Vec F S1000x1 .f32) (xo4 : Vec F S256x128 .f32) :
    out0_B_2 c i a2 h2 a3 h3 a4 h4 a5 h5 a6 h6 hc x0 x1 xo2 xo3 xo4 = k0_pay7 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  rw [View.canon_unit_zero hz]
  simp only [View.readAt_eq_ld, h2.read_unread, h3.read_unread, h4.read_unread, h5.read_unread, h6.read_unread,
    View.ld_unit_zero (S := S256x1024) hz, View.ld_unit_zero (S := S1000x1024) hz, View.ld_unit_zero (S := S1000x256) hz,
    View.ld_unit_zero (S := S1000x1) hz, View.ld_unit_zero (S := S256x128) hz]

/-- Case B, the memory rows' sums of squares: what was there plus this block's. -/
theorem out_B_3 (c : Dev nD) (i : grid0.Coords) (a2 : Memref sig .tc .vmem S256x1024 .f32) (h2 : a2.IsWhole) (a3 : Memref sig .tc .vmem S1000x1024 .f32) (h3 : a3.IsWhole) (a4 : Memref sig .tc .vmem S1000x256 .f32) (h4 : a4.IsWhole) (a5 : Memref sig .tc .vmem S1000x1 .f32) (h5 : a5.IsWhole) (a6 : Memref sig .tc .vmem S256x128 .f32) (h6 : a6.IsWhole) (hc : ¬cond0_0 i)
    (x0 : Vec F S256x1024 .f32) (x1 : Vec F S1000x1024 .f32) (xo2 : Vec F S1000x256 .f32) (xo3 : Vec F S1000x1 .f32) (xo4 : Vec F S256x128 .f32) :
    out0_B_3 c i a2 h2 a3 h3 a4 h4 a5 h5 a6 h6 hc x0 x1 xo2 xo3 xo4 = k0_pay6 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  rw [View.canon_unit_zero hz]
  simp only [View.readAt_eq_ld, h2.read_unread, h3.read_unread, h4.read_unread, h5.read_unread, h6.read_unread,
    View.ld_unit_zero (S := S256x1024) hz, View.ld_unit_zero (S := S1000x1024) hz, View.ld_unit_zero (S := S1000x256) hz,
    View.ld_unit_zero (S := S1000x1) hz, View.ld_unit_zero (S := S256x128) hz]

/-- Case B, the feature rows' sums of squares: what was there plus this block's. -/
theorem out_B_4 (c : Dev nD) (i : grid0.Coords) (a2 : Memref sig .tc .vmem S256x1024 .f32) (h2 : a2.IsWhole) (a3 : Memref sig .tc .vmem S1000x1024 .f32) (h3 : a3.IsWhole) (a4 : Memref sig .tc .vmem S1000x256 .f32) (h4 : a4.IsWhole) (a5 : Memref sig .tc .vmem S1000x1 .f32) (h5 : a5.IsWhole) (a6 : Memref sig .tc .vmem S256x128 .f32) (h6 : a6.IsWhole) (hc : ¬cond0_0 i)
    (x0 : Vec F S256x1024 .f32) (x1 : Vec F S1000x1024 .f32) (xo2 : Vec F S1000x256 .f32) (xo3 : Vec F S1000x1 .f32) (xo4 : Vec F S256x128 .f32) :
    out0_B_4 c i a2 h2 a3 h3 a4 h4 a5 h5 a6 h6 hc x0 x1 xo2 xo3 xo4 = k0_pay5 x0 xo4 := by
  unfold out0_B_4
  rw [View.read_writes_eq_canon _ _ _ (cover0_B_4 c i a2 h2 a3 h3 a4 h4 a5 h5 a6 h6 hc x0 x1 xo2 xo3 xo4)]
  unfold kernelRun0_B
  dsimp only
  rw [View.canon_unit_zero hz]
  simp only [View.readAt_eq_ld, h2.read_unread, h3.read_unread, h4.read_unread, h5.read_unread, h6.read_unread,
    View.ld_unit_zero (S := S256x1024) hz, View.ld_unit_zero (S := S1000x1024) hz, View.ld_unit_zero (S := S1000x256) hz,
    View.ld_unit_zero (S := S1000x1) hz, View.ld_unit_zero (S := S256x128) hz]

/-- Case A, the raw inner products: the zero block plus this block's product. -/
theorem out_A_2 (c : Dev nD) (i : grid0.Coords) (a2 : Memref sig .tc .vmem S256x1024 .f32) (h2 : a2.IsWhole) (a3 : Memref sig .tc .vmem S1000x1024 .f32) (h3 : a3.IsWhole) (a4 : Memref sig .tc .vmem S1000x256 .f32) (h4 : a4.IsWhole) (a5 : Memref sig .tc .vmem S1000x1 .f32) (h5 : a5.IsWhole) (a6 : Memref sig .tc .vmem S256x128 .f32) (h6 : a6.IsWhole) (hc : cond0_0 i)
    (x0 : Vec F S256x1024 .f32) (x1 : Vec F S1000x1024 .f32) :
    out0_A_2 c i a2 h2 a3 h3 a4 h4 a5 h5 a6 h6 hc x0 x1 = k0_pay7 x0 x1 k0_pay1 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1000x256) hz, View.readCov_unit_zero (S := S1000x256) _ hz]
  simp only [View.readAt_eq_ld, h2.read_unread, h3.read_unread, h4.read_unread, h5.read_unread, h6.read_unread,
    View.ld_unit_zero (S := S256x1024) hz, View.ld_unit_zero (S := S1000x1024) hz, View.ld_unit_zero (S := S1000x256) hz,
    View.ld_unit_zero (S := S1000x1) hz, View.ld_unit_zero (S := S256x128) hz]

/-- Case A, the memory rows' sums of squares: the zero column plus this block's. -/
theorem out_A_3 (c : Dev nD) (i : grid0.Coords) (a2 : Memref sig .tc .vmem S256x1024 .f32) (h2 : a2.IsWhole) (a3 : Memref sig .tc .vmem S1000x1024 .f32) (h3 : a3.IsWhole) (a4 : Memref sig .tc .vmem S1000x256 .f32) (h4 : a4.IsWhole) (a5 : Memref sig .tc .vmem S1000x1 .f32) (h5 : a5.IsWhole) (a6 : Memref sig .tc .vmem S256x128 .f32) (h6 : a6.IsWhole) (hc : cond0_0 i)
    (x0 : Vec F S256x1024 .f32) (x1 : Vec F S1000x1024 .f32) :
    out0_A_3 c i a2 h2 a3 h3 a4 h4 a5 h5 a6 h6 hc x0 x1 = k0_pay6 x1 k0_pay2 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1000x1) hz, View.readCov_unit_zero (S := S1000x1) _ hz]
  simp only [View.readAt_eq_ld, h2.read_unread, h3.read_unread, h4.read_unread, h5.read_unread, h6.read_unread,
    View.ld_unit_zero (S := S256x1024) hz, View.ld_unit_zero (S := S1000x1024) hz, View.ld_unit_zero (S := S1000x256) hz,
    View.ld_unit_zero (S := S1000x1) hz, View.ld_unit_zero (S := S256x128) hz]

/-- Case A, the feature rows' sums of squares: the zero block plus this block's. -/
theorem out_A_4 (c : Dev nD) (i : grid0.Coords) (a2 : Memref sig .tc .vmem S256x1024 .f32) (h2 : a2.IsWhole) (a3 : Memref sig .tc .vmem S1000x1024 .f32) (h3 : a3.IsWhole) (a4 : Memref sig .tc .vmem S1000x256 .f32) (h4 : a4.IsWhole) (a5 : Memref sig .tc .vmem S1000x1 .f32) (h5 : a5.IsWhole) (a6 : Memref sig .tc .vmem S256x128 .f32) (h6 : a6.IsWhole) (hc : cond0_0 i)
    (x0 : Vec F S256x1024 .f32) (x1 : Vec F S1000x1024 .f32) :
    out0_A_4 c i a2 h2 a3 h3 a4 h4 a5 h5 a6 h6 hc x0 x1 = k0_pay5 x0 k0_pay3 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S256x128) hz, View.readCov_unit_zero (S := S256x128) _ hz]
  simp only [View.readAt_eq_ld, h2.read_unread, h3.read_unread, h4.read_unread, h5.read_unread, h6.read_unread,
    View.ld_unit_zero (S := S256x1024) hz, View.ld_unit_zero (S := S1000x1024) hz, View.ld_unit_zero (S := S1000x256) hz,
    View.ld_unit_zero (S := S1000x1) hz, View.ld_unit_zero (S := S256x128) hz]

end Cert.KernelIdeal.Region0

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region0Pay.lean ====
/-
  The first kernel region's three updates, read at an index on the extended reals.

  With `x0` the feature block `[256, 1024]` and `x1` the memory block `[1000, 1024]` of a grid point, and `xo` what an output
  block held before:
  * the raw inner products `[1000, 256]` at `(r, b)` become `xo (r, b) + Σ_k x1 (r, k) · x0 (b, k)` (memory row `r` against
    feature row `b`, over the block's 1024 columns; the change of float format on the way in is the identity);
  * the memory rows' sums of squares `[1000, 1]` at `(r, ·)` become `xo (r, ·) + Σ_k x1 (r, k)²`;
  * the feature rows' sums of squares, kept in every lane of a `[256, 128]` block, at `(b, l)` become `xo (b, l) + Σ_k x0 (b, k)²`.
  The blocks the first point of a sweep stores before adding are zero.
-/
import proofs.«116774_j71399536329100_2_alg».proof.Proof.Gen.KernelIdeal.Skeleton
import proofs.«116774_j71399536329100_2_alg».proof.Proof.LibRowsDot
import proofs.«116774_j71399536329100_2_alg».proof.Proof.LibColumn
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen
open Idealize.ShloMosaic Idealize.ShloMosaic.TcCoe Idealize.ShloMosaic.ValueIdx

variable [Cert.KernelIdeal.Facts]

/-- A sum over axis 1 of a rank-2 array, read at row `r`: the sum over the row's entries. -/
theorem rowSum_apply {a n : ℕ} (v : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => congrArg v (funext fun ax => Fin.ext ?_)
  match ax with
  | ⟨0, _⟩ => rfl
  | ⟨1, _⟩ => rfl

/-- The zero blocks a sweep's first point stores. -/
theorem pay1_at (y : S1000x256.Idx) : k0_pay1 (F := Ideal) y = 0 := Ideal.ofBits_zero_f32
theorem pay2_at (y : S1000x1.Idx) : k0_pay2 (F := Ideal) y = 0 := Ideal.ofBits_zero_f32
theorem pay3_at (y : S256x128.Idx) : k0_pay3 (F := Ideal) y = 0 := Ideal.ofBits_zero_f32

/-- The raw inner products' update at `(r, b)`. -/
theorem pay7_apply (x0 : Vec Ideal S256x1024 .f32) (x1 : Vec Ideal S1000x1024 .f32) (xo : Vec Ideal S1000x256 .f32)
    (r : Fin 1000) (b : Fin 256) :
    k0_pay7 (F := Ideal) x0 x1 xo (ix2 r b) = xo (ix2 r b) + ∑ k : Fin 1024, x1 (ix2 r k) * x0 (ix2 b k) := by
  unfold k0_pay7 k0_pay4
  rw [shapeCast_self, shapeCast_self]
  show xo (ix2 r b) + FloatOps.matmul (Cert.Lib.rowsDot dot_S1000x1024_S256x1024_S1000x256_1_1_0_0_n_n_wf) none
      _ _ (constant (F := Ideal) ⟨2, ![1000, 256]⟩ .f32 0x00000000#32) (ix2 r b) = _
  rw [Cert.Lib.matmul_rows_zero_apply]
  rfl

theorem pay7_at (x0 : Vec Ideal S256x1024 .f32) (x1 : Vec Ideal S1000x1024 .f32) (xo : Vec Ideal S1000x256 .f32)
    (y : S1000x256.Idx) :
    k0_pay7 (F := Ideal) x0 x1 xo y = xo y + ∑ k : Fin 1024, x1 (ix2 (y 0) k) * x0 (ix2 (y 1) k) := by
  obtain ⟨r, b, rfl⟩ : ∃ (r : Fin 1000) (b : Fin 256), y = ix2 r b := ⟨y 0, y 1, eq_ix2 y⟩
  exact pay7_apply x0 x1 xo r b

/-- The memory rows' sums of squares' update at `(r, u)`. -/
theorem pay6_apply (x1 : Vec Ideal S1000x1024 .f32) (xo : Vec Ideal S1000x1 .f32) (r : Fin 1000) (u : Fin 1) :
    k0_pay6 (F := Ideal) x1 xo (ix2 r u) = xo (ix2 r u) + ∑ k : Fin 1024, x1 (ix2 r k) * x1 (ix2 r k) := by
  unfold k0_pay6
  rw [shapeCast_self]
  show xo (ix2 r u) + shapeCast ⟨2, ![1000, 1]⟩ _ shapeCasts_S1000_S1000x1 (ix2 r u) = _
  rw [Cert.Lib.shapeCast_a_a1_apply]
  exact congrArg (xo (ix2 r u) + ·) (rowSum_apply (a := 1000) (n := 1024) _ _ _ _ r)

theorem pay6_at (x1 : Vec Ideal S1000x1024 .f32) (xo : Vec Ideal S1000x1 .f32) (y : S1000x1.Idx) :
    k0_pay6 (F := Ideal) x1 xo y = xo y + ∑ k : Fin 1024, x1 (ix2 (y 0) k) * x1 (ix2 (y 0) k) := by
  obtain ⟨r, u, rfl⟩ : ∃ (r : Fin 1000) (u : Fin 1), y = ix2 r u := ⟨y 0, y 1, eq_ix2 y⟩
  exact pay6_apply x1 xo r u

/-- The feature rows' sums of squares' update at `(b, l)`: the same in every lane. -/
theorem pay5_apply (x0 : Vec Ideal S256x1024 .f32) (xo : Vec Ideal S256x128 .f32) (b : Fin 256) (l : Fin 128) :
    k0_pay5 (F := Ideal) x0 xo (ix2 b l) = xo (ix2 b l) + ∑ k : Fin 1024, x0 (ix2 b k) * x0 (ix2 b k) := by
  unfold k0_pay5 k0_pay4
  rw [shapeCast_self, shapeCast_self, shapeCast_self]
  show xo (ix2 b l) + broadcastTo ⟨2, ![256, 128]⟩ _ broadcasts_S256x1_S256x128 (ix2 b l) = _
  rw [Cert.Lib.broadcastTo_a1_ab_apply, Cert.Lib.shapeCast_a_a1_apply]
  exact congrArg (xo (ix2 b l) + ·) (rowSum_apply (a := 256) (n := 1024) _ _ _ _ b)

theorem pay5_at (x0 : Vec Ideal S256x1024 .f32) (xo : Vec Ideal S256x128 .f32) (y : S256x128.Idx) :
    k0_pay5 (F := Ideal) x0 xo y = xo y + ∑ k : Fin 1024, x0 (ix2 (y 0) k) * x0 (ix2 (y 0) k) := by
  obtain ⟨b, l, rfl⟩ : ∃ (b : Fin 256) (l : Fin 128), y = ix2 b l := ⟨y 0, y 1, eq_ix2 y⟩
  exact pay5_apply x0 xo b l

end Cert.KernelIdeal.Region0

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.Region0.lean ====
/-
  The first kernel region: three running sums over the feature and memory columns, swept block by block.

  The grid is 2 × 32: point `n` works on memory rows `1000 (n / 32) … + 999` and on columns `1024 (n mod 32) … + 1023` of both the
  feature `[256, 32768]` and the memory `[2000, 32768]`. Along a sweep (fixed `n / 32`) the three output blocks stay in place
  and accumulate: after point `n` they hold, for the column blocks `j = 0 … n mod 32`,
    the raw inner products       Σ_j Σ_k Y (1000 q + r, 1024 j + k) · X (b, 1024 j + k)       at (r, b),
    the memory rows' squares     Σ_j Σ_k Y (1000 q + r, 1024 j + k)²                          at (r, ·),
    the feature rows' squares    Σ_j Σ_k X (b, 1024 j + k)²                                   at (b, every lane),
  with `q = n / 32` (by induction on the point: a sweep's first point starts from zero, every other adds to what the point
  before left). Each sweep's last point writes the blocks back; thirty-two blocks of 1024 columns are all 32768 columns, so
  after the region the three arrays hold the full sums over `d`: `Σ_d Y (m, d) · X (b, d)` at `(m, b)`, `Σ_d Y (m, d)²` at
  `(m, ·)`, and `Σ_d X (b, d)²` at `(b, every column)`. Nothing here needs finiteness: sums of extended reals regroup freely.
-/
import proofs.«116774_j71399536329100_2_alg».proof.Proof.Region0Pieces
import proofs.«116774_j71399536329100_2_alg».proof.Proof.Region0Pay
import proofs.«116774_j71399536329100_2_alg».proof.Proof.LibBlockSum

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The feature's entry `(b, col)` as the region finds it, the column taken modulo the width (so that it is total). -/
def fe (c : Dev nD) (b : Fin 256) (col : ℕ) : EReal :=
  V c main_v0 (ix2 b (⟨col % 32768, Nat.mod_lt _ (by decide)⟩ : Fin 32768))
/-- The memory's entry `(row, col)` as the region finds it, both coordinates taken modulo the extents. -/
def me (c : Dev nD) (row col : ℕ) : EReal :=
  V c main_arg1 (ix2 (⟨row % 2000, Nat.mod_lt _ (by decide)⟩ : Fin 2000) (⟨col % 32768, Nat.mod_lt _ (by decide)⟩ : Fin 32768))

/-- The printed index maps over the 64 grid points. -/
theorem idx_facts : ∀ t : Fin cfg0.N,
    win0_0.index t (0 : Fin 2) = 0 ∧ win0_0.index t (1 : Fin 2) = t.val % 32
    ∧ win0_1.index t (0 : Fin 2) = t.val / 32 ∧ win0_1.index t (1 : Fin 2) = t.val % 32
    ∧ win0_2.index t (0 : Fin 2) = t.val / 32 ∧ win0_2.index t (1 : Fin 2) = 0
    ∧ win0_3.index t (0 : Fin 2) = t.val / 32 ∧ win0_3.index t (1 : Fin 2) = 0
    ∧ win0_4.index t (0 : Fin 2) = 0 ∧ win0_4.index t (1 : Fin 2) = t.val / 32 :=
  (by decide +kernel : ∀ t : Fin grid0.N, _)

/-- The feature block at point `t`: columns `1024 (t mod 32) + k`. -/
theorem blk0_read (c : Dev nD) (t : Fin cfg0.N) (b : Fin 256) (k : Fin 1024) :
    (iblk0 V c 0 t : Vec Ideal S256x1024 .f32) (ix2 b k) = fe V c b (1024 * (t.val % 32) + k.val) := by
  obtain ⟨e0, e1, -⟩ := idx_facts t
  have hb : b.val < 256 := b.isLt
  have hk : k.val < 1024 := k.isLt
  unfold iblk0 fe
  rw [View.read_apply]
  show V c main_v0 (((cfg0.win 0).blk t).view.emb (ix2 b k)) = V c main_v0 _
  refine congrArg _ (funext fun a => Fin.ext ?_)
  match a with
  | ⟨0, _⟩ => show win0_0.index t (0 : Fin 2) * 256 + 1 * b.val = b.val; rw [e0]; omega
  | ⟨1, _⟩ => show win0_0.index t (1 : Fin 2) * 1024 + 1 * k.val = (1024 * (t.val % 32) + k.val) % 32768; rw [e1]; omega

/-- The memory block at point `t`: rows `1000 (t / 32) + r`, columns `1024 (t mod 32) + k`. -/
theorem blk1_read (c : Dev nD) (t : Fin cfg0.N) (r : Fin 1000) (k : Fin 1024) :
    (iblk0 V c 1 t : Vec Ideal S1000x1024 .f32) (ix2 r k) = me V c (1000 * (t.val / 32) + r.val) (1024 * (t.val % 32) + k.val) := by
  obtain ⟨-, -, e2, e3, -⟩ := idx_facts t
  have hN : cfg0.N = 64 := N_0
  have ht : t.val < 64 := hN ▸ t.isLt
  have hr : r.val < 1000 := r.isLt
  have hk : k.val < 1024 := k.isLt
  unfold iblk0 me
  rw [View.read_apply]
  show V c main_arg1 (((cfg0.win 1).blk t).view.emb (ix2 r k)) = V c main_arg1 _
  refine congrArg _ (funext fun a => Fin.ext ?_)
  match a with
  | ⟨0, _⟩ => show win0_1.index t (0 : Fin 2) * 1000 + 1 * r.val = (1000 * (t.val / 32) + r.val) % 2000; rw [e2]; omega
  | ⟨1, _⟩ => show win0_1.index t (1 : Fin 2) * 1024 + 1 * k.val = (1024 * (t.val % 32) + k.val) % 32768; rw [e3]; omega

/-! ## One column block's contribution, and the running sums -/

/-- Column block `j`'s contribution to the raw inner product of memory row `1000 q + r` and feature row `b`. -/
def T2 (c : Dev nD) (q j : ℕ) (r : Fin 1000) (b : Fin 256) : EReal :=
  ∑ k : Fin 1024, me V c (1000 * q + r.val) (1024 * j + k.val) * fe V c b (1024 * j + k.val)
/-- Column block `j`'s contribution to memory row `1000 q + r`'s sum of squares. -/
def T3 (c : Dev nD) (q j : ℕ) (r : Fin 1000) : EReal :=
  ∑ k : Fin 1024, me V c (1000 * q + r.val) (1024 * j + k.val) * me V c (1000 * q + r.val) (1024 * j + k.val)
/-- Column block `j`'s contribution to feature row `b`'s sum of squares. -/
def T4 (c : Dev nD) (j : ℕ) (b : Fin 256) : EReal :=
  ∑ k : Fin 1024, fe V c b (1024 * j + k.val) * fe V c b (1024 * j + k.val)

/-- The three output blocks after point `n`: the contributions of column blocks `0 … n mod 32`. -/
def P2 (c : Dev nD) (n : ℕ) : Vec Ideal S1000x256 .f32 :=
  fun y => ∑ j ∈ Finset.range (n % 32 + 1), T2 V c (n / 32) j (y 0) (y 1)
def P3 (c : Dev nD) (n : ℕ) : Vec Ideal S1000x1 .f32 :=
  fun y => ∑ j ∈ Finset.range (n % 32 + 1), T3 V c (n / 32) j (y 0)
def P4 (c : Dev nD) (n : ℕ) : Vec Ideal S256x128 .f32 :=
  fun y => ∑ j ∈ Finset.range (n % 32 + 1), T4 V c j (y 0)

/-- At a sweep's first point the sum has one term; at any other point it is the previous point's sum plus one term. -/
theorem range_first {M : Type} [AddCommMonoid M] (f : ℕ → M) (n : ℕ) (h0 : n % 32 = 0) :
    ∑ j ∈ Finset.range (n % 32 + 1), f j = f (n % 32) := by
  rw [h0]; exact Finset.sum_range_one f
theorem range_next {M : Type} [AddCommMonoid M] (f : ℕ → M) (n : ℕ) (h0 : ¬(n + 1) % 32 = 0) :
    ∑ j ∈ Finset.range ((n + 1) % 32 + 1), f j = ∑ j ∈ Finset.range (n % 32 + 1), f j + f ((n + 1) % 32) := by
  have e : (n + 1) % 32 = n % 32 + 1 := by omega
  rw [e, Finset.sum_range_succ]

/-! ## The updates at a grid point, in those terms -/

theorem upd2 (c : Dev nD) (t : Fin cfg0.N) (xo : Vec Ideal S1000x256 .f32) (r : Fin 1000) (b : Fin 256) :
    k0_pay7 (F := Ideal) (iblk0 V c 0 t) (iblk0 V c 1 t) xo (ix2 r b) = xo (ix2 r b) + T2 V c (t.val / 32) (t.val % 32) r b := by
  refine (pay7_apply (iblk0 V c 0 t) (iblk0 V c 1 t) xo r b).trans ?_
  refine congrArg (xo (ix2 r b) + ·) (Finset.sum_congr rfl fun k _ => ?_)
  rw [blk1_read V c t r k, blk0_read V c t b k]

theorem upd3 (c : Dev nD) (t : Fin cfg0.N) (xo : Vec Ideal S1000x1 .f32) (r : Fin 1000) (u : Fin 1) :
    k0_pay6 (F := Ideal) (iblk0 V c 1 t) xo (ix2 r u) = xo (ix2 r u) + T3 V c (t.val / 32) (t.val % 32) r := by
  refine (pay6_apply (iblk0 V c 1 t) xo r u).trans ?_
  refine congrArg (xo (ix2 r u) + ·) (Finset.sum_congr rfl fun k _ => ?_)
  rw [blk1_read V c t r k]

theorem upd4 (c : Dev nD) (t : Fin cfg0.N) (xo : Vec Ideal S256x128 .f32) (b : Fin 256) (l : Fin 128) :
    k0_pay5 (F := Ideal) (iblk0 V c 0 t) xo (ix2 b l) = xo (ix2 b l) + T4 V c (t.val % 32) b := by
  refine (pay5_apply (iblk0 V c 0 t) xo b l).trans ?_
  refine congrArg (xo (ix2 b l) + ·) (Finset.sum_congr rfl fun k _ => ?_)
  rw [blk0_read V c t b k]

/-! ## The induction over the grid points -/

/-- A sweep's first point: the zero blocks plus the first contribution. -/
theorem caseA (c : Dev nD) (t : Fin cfg0.N) (h0 : t.val % 32 = 0) :
    outsAt0 V c t.val t.isLt = (P2 V c t.val, P3 V c t.val, P4 V c t.val) := by
  rw [outsAt0_A V c t h0,
    out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]
  refine Prod.ext ?_ (Prod.ext ?_ ?_)
  · funext y
    obtain ⟨r, b, rfl⟩ : ∃ (r : Fin 1000) (b : Fin 256), y = ix2 r b := ⟨y 0, y 1, eq_ix2 y⟩
    show k0_pay7 (F := Ideal) (iblk0 V c 0 t) (iblk0 V c 1 t) (k0_pay1 (F := Ideal)) (ix2 r b) = ∑ j ∈ Finset.range (t.val % 32 + 1), T2 V c (t.val / 32) j r b
    rw [upd2 V c t, pay1_at, zero_add, range_first _ _ h0]
  · funext y
    obtain ⟨r, u, rfl⟩ : ∃ (r : Fin 1000) (u : Fin 1), y = ix2 r u := ⟨y 0, y 1, eq_ix2 y⟩
    show k0_pay6 (F := Ideal) (iblk0 V c 1 t) (k0_pay2 (F := Ideal)) (ix2 r u) = ∑ j ∈ Finset.range (t.val % 32 + 1), T3 V c (t.val / 32) j r
    rw [upd3 V c t, pay2_at, zero_add, range_first _ _ h0]
  · funext y
    obtain ⟨b, l, rfl⟩ : ∃ (b : Fin 256) (l : Fin 128), y = ix2 b l := ⟨y 0, y 1, eq_ix2 y⟩
    show k0_pay5 (F := Ideal) (iblk0 V c 0 t) (k0_pay3 (F := Ideal)) (ix2 b l) = ∑ j ∈ Finset.range (t.val % 32 + 1), T4 V c j b
    rw [upd4 V c t, pay3_at, zero_add, range_first _ _ h0]

/-- After every grid point the three output blocks hold the running sums. -/
theorem outsAt_eq (c : Dev nD) : ∀ (n : ℕ) (h : n < cfg0.N), outsAt0 V c n h = (P2 V c n, P3 V c n, P4 V c n)
  | 0, h => caseA V c ⟨0, h⟩ rfl
  | n + 1, h => by
    by_cases h0 : (n + 1) % 32 = 0
    · exact caseA V c ⟨n + 1, h⟩ h0
    · have hq : (n + 1) / 32 = n / 32 := by omega
      rw [outsAt0_B V c ⟨n + 1, h⟩ h0]
      show (out0_B_2 c _ _ _ _ _ _ _ _ _ _ _ _ _ _ (outsAt0 V c n _).1 (outsAt0 V c n _).2.1 (outsAt0 V c n _).2.2,
            out0_B_3 c _ _ _ _ _ _ _ _ _ _ _ _ _ _ (outsAt0 V c n _).1 (outsAt0 V c n _).2.1 (outsAt0 V c n _).2.2,
            out0_B_4 c _ _ _ _ _ _ _ _ _ _ _ _ _ _ (outsAt0 V c n _).1 (outsAt0 V c n _).2.1 (outsAt0 V c n _).2.2) = _
      rw [outsAt_eq c n (Nat.lt_of_succ_lt h)]
      dsimp only
      rw [out_B_2, out_B_3, out_B_4]
      refine Prod.ext ?_ (Prod.ext ?_ ?_)
      · funext y
        obtain ⟨r, b, rfl⟩ : ∃ (r : Fin 1000) (b : Fin 256), y = ix2 r b := ⟨y 0, y 1, eq_ix2 y⟩
        show k0_pay7 (F := Ideal) (iblk0 V c 0 ⟨n + 1, h⟩) (iblk0 V c 1 ⟨n + 1, h⟩) (P2 V c n) (ix2 r b) = ∑ j ∈ Finset.range ((n + 1) % 32 + 1), T2 V c ((n + 1) / 32) j r b
        rw [upd2 V c ⟨n + 1, h⟩, range_next _ _ h0, hq]; rfl
      · funext y
        obtain ⟨r, u, rfl⟩ : ∃ (r : Fin 1000) (u : Fin 1), y = ix2 r u := ⟨y 0, y 1, eq_ix2 y⟩
        show k0_pay6 (F := Ideal) (iblk0 V c 1 ⟨n + 1, h⟩) (P3 V c n) (ix2 r u) = ∑ j ∈ Finset.range ((n + 1) % 32 + 1), T3 V c ((n + 1) / 32) j r
        rw [upd3 V c ⟨n + 1, h⟩, range_next _ _ h0, hq]; rfl
      · funext y
        obtain ⟨b, l, rfl⟩ : ∃ (b : Fin 256) (l : Fin 128), y = ix2 b l := ⟨y 0, y 1, eq_ix2 y⟩
        show k0_pay5 (F := Ideal) (iblk0 V c 0 ⟨n + 1, h⟩) (P4 V c n) (ix2 b l) = ∑ j ∈ Finset.range ((n + 1) % 32 + 1), T4 V c j b
        rw [upd4 V c ⟨n + 1, h⟩, range_next _ _ h0]; rfl

end Cert.KernelIdeal.Region0

end
-- ==== Proof.Region0Final.lean ====
/-
  The first kernel region's three arrays after the region.

  A sweep's last point (`n mod 32 = 31`) writes the three output blocks back, holding the contributions of all thirty-two column
  blocks; thirty-two blocks of 1024 columns are all 32768 columns (a sum over `Fin (32 · 1024)` by blocks), so each written
  entry is a full sum over `d`. The two sweeps' blocks tile each array, so after the region, for any entry contents `V` with
  `X = V main_v0` (the feature, `[256, 32768]`) and `Y = V main_arg1` (the memory, `[2000, 32768]`):
    the raw inner products `[2000, 256]` hold `Σ_d Y (m, d) · X (b, d)` at `(m, b)`;
    the memory rows' sums of squares `[2000, 1]` hold `Σ_d Y (m, d)²` at `(m, ·)`;
    the feature rows' sums of squares `[256, 256]` hold `Σ_d X (b, d)²` at `(b, every column)`.
-/
import proofs.«116774_j71399536329100_2_alg».proof.Proof.Region0

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Thirty-two blocks of 1024 columns are all the columns. -/
theorem blocks_sum (g : ℕ → EReal) :
    ∑ j ∈ Finset.range 32, ∑ k : Fin 1024, g (1024 * j + k.val) = ∑ d : Fin 32768, g d.val := by
  rw [Finset.sum_range]
  refine Eq.trans ?_ (Cert.Lib.sum_blocks (M := EReal) 32 1024 (fun d => g d.val)).symm
  refine Finset.sum_congr rfl fun d _ => Finset.sum_congr rfl fun j _ => ?_
  rw [Cert.Lib.blockIdx_val, Nat.add_comm]

/-- The feature's and the memory's entries as the region finds them, by coordinates. -/
def xe (c : Dev nD) (b : Fin 256) (d : Fin 32768) : EReal := V c main_v0 (ix2 b d)
def ye (c : Dev nD) (m : Fin 2000) (d : Fin 32768) : EReal := V c main_arg1 (ix2 m d)

/-- In range, the total readers read the arrays themselves. -/
theorem me_eq (c : Dev nD) (m : Fin 2000) (d : Fin 32768) (row : ℕ) (h : row = m.val) :
    me V c row d.val = ye V c m d := by
  subst h
  unfold me ye
  refine congrArg _ (funext fun a => Fin.ext ?_)
  match a with
  | ⟨0, _⟩ => exact Nat.mod_eq_of_lt m.isLt
  | ⟨1, _⟩ => exact Nat.mod_eq_of_lt d.isLt
theorem fe_eq (c : Dev nD) (b : Fin 256) (d : Fin 32768) : fe V c b d.val = xe V c b d := by
  unfold fe xe
  refine congrArg _ (funext fun a => Fin.ext ?_)
  match a with
  | ⟨0, _⟩ => rfl
  | ⟨1, _⟩ => exact Nat.mod_eq_of_lt d.isLt

/-- The three full sums over the 32768 columns. -/
def D2 (c : Dev nD) (m : Fin 2000) (b : Fin 256) : EReal :=
  ∑ d : Fin 32768, ye V c m d * xe V c b d
def D3 (c : Dev nD) (m : Fin 2000) : EReal :=
  ∑ d : Fin 32768, ye V c m d * ye V c m d
def D4 (c : Dev nD) (b : Fin 256) : EReal :=
  ∑ d : Fin 32768, xe V c b d * xe V c b d

theorem full2 (c : Dev nD) (q : ℕ) (r : Fin 1000) (b : Fin 256) (m : Fin 2000) (hm : 1000 * q + r.val = m.val) :
    ∑ j ∈ Finset.range 32, T2 V c q j r b = D2 V c m b := by
  unfold T2 D2
  rw [blocks_sum (fun col => me V c (1000 * q + r.val) col * fe V c b col)]
  exact Finset.sum_congr rfl fun d _ => by rw [me_eq V c m d _ hm, fe_eq V c b d]
theorem full3 (c : Dev nD) (q : ℕ) (r : Fin 1000) (m : Fin 2000) (hm : 1000 * q + r.val = m.val) :
    ∑ j ∈ Finset.range 32, T3 V c q j r = D3 V c m := by
  unfold T3 D3
  rw [blocks_sum (fun col => me V c (1000 * q + r.val) col * me V c (1000 * q + r.val) col)]
  exact Finset.sum_congr rfl fun d _ => by rw [me_eq V c m d _ hm]
theorem full4 (c : Dev nD) (b : Fin 256) : ∑ j ∈ Finset.range 32, T4 V c j b = D4 V c b := by
  unfold T4 D4
  rw [blocks_sum (fun col => fe V c b col * fe V c b col)]
  exact Finset.sum_congr rfl fun d _ => by rw [fe_eq V c b d]

/-- The three arrays after the region. -/
def G2 (c : Dev nD) : S2000x256.Idx → EReal := fun i => D2 V c (i 0) (i 1)
def G3 (c : Dev nD) : S2000x1.Idx → EReal := fun i => D3 V c (i 0)
def G4 (c : Dev nD) : S256x256.Idx → EReal := fun i => D4 V c (i 0)

/-- At a sweep's last point the running sums are the full sums. -/
theorem P2_last (c : Dev nD) (n : ℕ) (h31 : n % 32 = 31) (y : S1000x256.Idx) (m : Fin 2000)
    (hm : 1000 * (n / 32) + (y 0).val = m.val) : P2 V c n y = D2 V c m (y 1) := by
  unfold P2
  rw [h31]
  exact full2 V c (n / 32) (y 0) (y 1) m hm
theorem P3_last (c : Dev nD) (n : ℕ) (h31 : n % 32 = 31) (y : S1000x1.Idx) (m : Fin 2000)
    (hm : 1000 * (n / 32) + (y 0).val = m.val) : P3 V c n y = D3 V c m := by
  unfold P3
  rw [h31]
  exact full3 V c (n / 32) (y 0) m hm
theorem P4_last (c : Dev nD) (n : ℕ) (h31 : n % 32 = 31) (y : S256x128.Idx) : P4 V c n y = D4 V c (y 0) := by
  unfold P4
  rw [h31]
  exact full4 V c (y 0)

/-! ## The raw inner products -/

/-- The write-back at a point, for any function `G` of the array's index that agrees with the running sum on the block. -/
theorem flushed2_of (c : Dev nD) (t : Fin cfg0.N) (G : S2000x256.Idx → EReal)
    (hG : ∀ (y : S1000x256.Idx) (i : S2000x256.Idx), (i 0).val = win0_2.index t (0 : Fin 2) * 1000 + 1 * (y 0).val →
      (i 1).val = win0_2.index t (1 : Fin 2) * 256 + 1 * (y 1).val → P2 V c t.val y = G i) :
    (dat0 V c).flushed 2 t = ((cfg0.win 2).blk t).view.read (Elt Ideal) G := by
  show (cfg0.win 2).cut (grid0.coords t) ((dat0 V c).after 2 t) = _
  rw [after0_2, outsAt_eq V c t.val t.isLt]
  funext y
  show P2 V c t.val ((cfg0.win 2).xinj (grid0.coords t) y) = G (((cfg0.win 2).blk t).view.emb y)
  exact hG _ _ rfl rfl

theorem flushed2 (c : Dev nD) (t : Fin cfg0.N) (hf : (cfg0.win 2).flush t = true) :
    (dat0 V c).flushed 2 t = ((cfg0.win 2).blk t).view.read (Elt Ideal) (G2 V c) := by
  have h31 : t.val % 32 = 31 := (flush0_2 t).mp hf
  obtain ⟨-, -, -, -, e4, e5, -⟩ := idx_facts t
  refine flushed2_of V c t (G2 V c) fun y i h0 h1 => ?_
  refine (P2_last V c t.val h31 y (i 0) (by rw [h0, e4]; omega)).trans ?_
  unfold G2
  refine congrArg (D2 V c (i 0)) (Fin.ext ?_)
  rw [h1, e5]; omega

theorem mem_blk2 (t : Fin cfg0.N) (i : S2000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v1_0).slice (win0_2.rect t)).set ↔ _
  rw [View.set_slice_whole, Rect.mem_set_unit]
  exact Iff.rfl

/-- The raw inner products after the region: `Σ_d Y (m, d) · X (b, d)` at `(m, b)`. -/
theorem final2 (c : Dev nD) : (dat0 V c).arrAt 2 cfg0.N = G2 V c :=
  (dat0 V c).arrAt_eq_of_cover 2 (G2 V c) (flushed2 V c) fun i => by
    have hN : cfg0.N = 64 := N_0
    have hi0 : (i 0).val < 2000 := (i 0).isLt
    have hi1 : (i 1).val < 256 := (i 1).isLt
    let t : Fin cfg0.N := ⟨32 * ((i 0).val / 1000) + 31, by rw [hN]; omega⟩
    have htv : t.val = 32 * ((i 0).val / 1000) + 31 := rfl
    obtain ⟨-, -, -, -, e4, e5, -⟩ := idx_facts t
    refine ⟨t, (flush0_2 t).mpr (by rw [htv]; omega), ?_⟩
    rw [mem_blk2]
    intro a
    match a with
    | ⟨0, _⟩ => show win0_2.index t (0 : Fin 2) * 1000 ≤ (i 0).val ∧ (i 0).val < win0_2.index t (0 : Fin 2) * 1000 + 1000; rw [e4, htv]; omega
    | ⟨1, _⟩ => show win0_2.index t (1 : Fin 2) * 256 ≤ (i 1).val ∧ (i 1).val < win0_2.index t (1 : Fin 2) * 256 + 256; rw [e5]; omega

/-! ## The memory rows' sums of squares -/

theorem flushed3_of (c : Dev nD) (t : Fin cfg0.N) (G : S2000x1.Idx → EReal)
    (hG : ∀ (y : S1000x1.Idx) (i : S2000x1.Idx), (i 0).val = win0_3.index t (0 : Fin 2) * 1000 + 1 * (y 0).val → P3 V c t.val y = G i) :
    (dat0 V c).flushed 3 t = ((cfg0.win 3).blk t).view.read (Elt Ideal) G := by
  show (cfg0.win 3).cut (grid0.coords t) ((dat0 V c).after 3 t) = _
  rw [after0_3, outsAt_eq V c t.val t.isLt]
  funext y
  show P3 V c t.val ((cfg0.win 3).xinj (grid0.coords t) y) = G (((cfg0.win 3).blk t).view.emb y)
  exact hG _ _ rfl

theorem flushed3 (c : Dev nD) (t : Fin cfg0.N) (hf : (cfg0.win 3).flush t = true) :
    (dat0 V c).flushed 3 t = ((cfg0.win 3).blk t).view.read (Elt Ideal) (G3 V c) := by
  have h31 : t.val % 32 = 31 := (flush0_3 t).mp hf
  obtain ⟨-, -, -, -, -, -, e6, e7, -⟩ := idx_facts t
  refine flushed3_of V c t (G3 V c) fun y i h0 => ?_
  refine (P3_last V c t.val h31 y (i 0) (by rw [h0, e6]; omega)).trans ?_
  unfold G3
  rfl

theorem mem_blk3 (t : Fin cfg0.N) (i : S2000x1.Idx) :
    i ∈ ((cfg0.win 3).blk t).view.set ↔ ∀ a : Fin 2, win0_3.index t a * S1000x1.size a ≤ (i a).val ∧ (i a).val < win0_3.index t a * S1000x1.size a + S1000x1.size a := by
  show i ∈ ((View.whole main_v1_1).slice (win0_3.rect t)).set ↔ _
  rw [View.set_slice_whole, Rect.mem_set_unit]
  exact Iff.rfl

/-- The memory rows' sums of squares after the region: `Σ_d Y (m, d)²` at `(m, ·)`. -/
theorem final3 (c : Dev nD) : (dat0 V c).arrAt 3 cfg0.N = G3 V c :=
  (dat0 V c).arrAt_eq_of_cover 3 (G3 V c) (flushed3 V c) fun i => by
    have hN : cfg0.N = 64 := N_0
    have hi0 : (i 0).val < 2000 := (i 0).isLt
    have hi1 : (i 1).val < 1 := (i 1).isLt
    let t : Fin cfg0.N := ⟨32 * ((i 0).val / 1000) + 31, by rw [hN]; omega⟩
    have htv : t.val = 32 * ((i 0).val / 1000) + 31 := rfl
    obtain ⟨-, -, -, -, -, -, e6, e7, -⟩ := idx_facts t
    refine ⟨t, (flush0_3 t).mpr (by rw [htv]; omega), ?_⟩
    rw [mem_blk3]
    intro a
    match a with
    | ⟨0, _⟩ => show win0_3.index t (0 : Fin 2) * 1000 ≤ (i 0).val ∧ (i 0).val < win0_3.index t (0 : Fin 2) * 1000 + 1000; rw [e6, htv]; omega
    | ⟨1, _⟩ => show win0_3.index t (1 : Fin 2) * 1 ≤ (i 1).val ∧ (i 1).val < win0_3.index t (1 : Fin 2) * 1 + 1; rw [e7]; omega

/-! ## The feature rows' sums of squares -/

theorem flushed4_of (c : Dev nD) (t : Fin cfg0.N) (G : S256x256.Idx → EReal)
    (hG : ∀ (y : S256x128.Idx) (i : S256x256.Idx), (i 0).val = win0_4.index t (0 : Fin 2) * 256 + 1 * (y 0).val → P4 V c t.val y = G i) :
    (dat0 V c).flushed 4 t = ((cfg0.win 4).blk t).view.read (Elt Ideal) G := by
  show (cfg0.win 4).cut (grid0.coords t) ((dat0 V c).after 4 t) = _
  rw [after0_4, outsAt_eq V c t.val t.isLt]
  funext y
  show P4 V c t.val ((cfg0.win 4).xinj (grid0.coords t) y) = G (((cfg0.win 4).blk t).view.emb y)
  exact hG _ _ rfl

theorem flushed4 (c : Dev nD) (t : Fin cfg0.N) (hf : (cfg0.win 4).flush t = true) :
    (dat0 V c).flushed 4 t = ((cfg0.win 4).blk t).view.read (Elt Ideal) (G4 V c) := by
  have h31 : t.val % 32 = 31 := (flush0_4 t).mp hf
  obtain ⟨-, -, -, -, -, -, -, -, e8, e9⟩ := idx_facts t
  refine flushed4_of V c t (G4 V c) fun y i h0 => ?_
  refine (P4_last V c t.val h31 y).trans ?_
  unfold G4
  refine congrArg (D4 V c) (Fin.ext ?_)
  rw [h0, e8]; omega

theorem mem_blk4 (t : Fin cfg0.N) (i : S256x256.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v1_2).slice (win0_4.rect t)).set ↔ _
  rw [View.set_slice_whole, Rect.mem_set_unit]
  exact Iff.rfl

/-- The feature rows' sums of squares after the region: `Σ_d X (b, d)²` at `(b, every column)`. -/
theorem final4 (c : Dev nD) : (dat0 V c).arrAt 4 cfg0.N = G4 V c :=
  (dat0 V c).arrAt_eq_of_cover 4 (G4 V c) (flushed4 V c) fun i => by
    have hN : cfg0.N = 64 := N_0
    have hi0 : (i 0).val < 256 := (i 0).isLt
    have hi1 : (i 1).val < 256 := (i 1).isLt
    let t : Fin cfg0.N := ⟨32 * ((i 1).val / 128) + 31, by rw [hN]; omega⟩
    have htv : t.val = 32 * ((i 1).val / 128) + 31 := rfl
    obtain ⟨-, -, -, -, -, -, -, -, e8, e9⟩ := idx_facts t
    refine ⟨t, (flush0_4 t).mpr (by rw [htv]; omega), ?_⟩
    rw [mem_blk4]
    intro a
    match a with
    | ⟨0, _⟩ => show win0_4.index t (0 : Fin 2) * 256 ≤ (i 0).val ∧ (i 0).val < win0_4.index t (0 : Fin 2) * 256 + 256; rw [e8]; omega
    | ⟨1, _⟩ => show win0_4.index t (1 : Fin 2) * 128 ≤ (i 1).val ∧ (i 1).val < win0_4.index t (1 : Fin 2) * 128 + 128; rw [e9, htv]; omega

end Cert.KernelIdeal.Region0

end
-- ==== Proof.Region1.lean ====
/-
  The second kernel region: the softmax pipeline on the logits, in one grid point.

  Every window's one block is its whole array, so the body reads the raw inner products `[256, 2000]`, the memory rows' sums
  of squares `[2000, 1]` and the feature rows' sums of squares `[256, 1]` whole, and stores the attention weights
  `[256, 2000]` whole: after the region the weight array is the body's one pure function of the three arrays the region was
  entered with, for any entry contents `V`.
-/
import proofs.«116774_j71399536329100_2_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Over the one grid point every window's block index is zero on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The logits' block is the whole logit array. -/
theorem blk0_eq (c : Dev nD) (t : Fin cfg1.N) : (iblk1 V c 0 t : Vec F S256x2000 .f32) = V c main_v2 := by
  obtain ⟨e0, e1, -⟩ := idx_facts t
  funext y
  unfold iblk1
  rw [View.read_apply]
  show V c main_v2 (((cfg1.win 0).blk t).view.emb y) = V c main_v2 y
  refine congrArg _ (funext fun a => Fin.ext ?_)
  match a with
  | ⟨0, _⟩ => show win1_0.index t (0 : Fin 2) * 256 + 1 * (y 0).val = (y 0).val; rw [e0]; omega
  | ⟨1, _⟩ => show win1_0.index t (1 : Fin 2) * 2000 + 1 * (y 1).val = (y 1).val; rw [e1]; omega

/-- The memory rows' sums of squares: the block is the whole column. -/
theorem blk1_eq (c : Dev nD) (t : Fin cfg1.N) : (iblk1 V c 1 t : Vec F S2000x1 .f32) = V c main_v1_1 := by
  obtain ⟨-, -, e2, e3, -⟩ := idx_facts t
  funext y
  unfold iblk1
  rw [View.read_apply]
  show V c main_v1_1 (((cfg1.win 1).blk t).view.emb y) = V c main_v1_1 y
  refine congrArg _ (funext fun a => Fin.ext ?_)
  match a with
  | ⟨0, _⟩ => show win1_1.index t (0 : Fin 2) * 2000 + 1 * (y 0).val = (y 0).val; rw [e2]; omega
  | ⟨1, _⟩ => show win1_1.index t (1 : Fin 2) * 1 + 1 * (y 1).val = (y 1).val; rw [e3]; omega

/-- The feature rows' sums of squares: the block is the whole column. -/
theorem blk2_eq (c : Dev nD) (t : Fin cfg1.N) : (iblk1 V c 2 t : Vec F S256x1 .f32) = V c main_v3 := by
  obtain ⟨-, -, -, -, e4, e5, -⟩ := idx_facts t
  funext y
  unfold iblk1
  rw [View.read_apply]
  show V c main_v3 (((cfg1.win 2).blk t).view.emb y) = V c main_v3 y
  refine congrArg _ (funext fun a => Fin.ext ?_)
  match a with
  | ⟨0, _⟩ => show win1_2.index t (0 : Fin 2) * 256 + 1 * (y 0).val = (y 0).val; rw [e4]; omega
  | ⟨1, _⟩ => show win1_2.index t (1 : Fin 2) * 1 + 1 * (y 1).val = (y 1).val; rw [e5]; omega

/-- The weight array after the region, as the body's function of the three arrays it reads. -/
abbrev G (c : Dev nD) : S256x2000.Idx → Elt F .f32 := k1_pay1 (V c main_v2) (V c main_v1_1) (V c main_v3)

/-- What the one point writes back is the whole of that function. -/
theorem flushed_eq (c : Dev nD) (t : Fin cfg1.N) :
    (dat1 V c).flushed 3 t = ((cfg1.win 3).blk t).view.read (Elt F) (G V c) := by
  show (cfg1.win 3).cut (grid1.coords t) ((dat1 V c).after 3 t) = _
  rw [after1_3]
  unfold out1_3
  rw [View.canon_unit_zero hz]
  simp only [View.ld_unit_zero (S := S256x2000) hz, View.ld_unit_zero (S := S2000x1) hz, View.ld_unit_zero (S := S256x1) hz]
  rw [blk0_eq V c t, blk1_eq V c t, blk2_eq V c t]
  obtain ⟨-, -, -, -, -, -, e6, e7⟩ := idx_facts t
  funext j
  show G V c j = G V c (((cfg1.win 3).blk t).view.emb j)
  refine congrArg _ (funext fun a => Fin.ext ?_)
  match a with
  | ⟨0, _⟩ => show (j 0).val = win1_3.index t (0 : Fin 2) * 256 + 1 * (j 0).val; rw [e6]; omega
  | ⟨1, _⟩ => show (j 1).val = win1_3.index t (1 : Fin 2) * 2000 + 1 * (j 1).val; rw [e7]; omega

theorem mem_blk (t : Fin cfg1.N) (i : S256x2000.Idx) :
    i ∈ ((cfg1.win 3).blk t).view.set ↔ ∀ a : Fin 2, win1_3.index t a * S256x2000.size a ≤ (i a).val ∧ (i a).val < win1_3.index t a * S256x2000.size a + S256x2000.size a := by
  show i ∈ ((View.whole main_v4).slice (win1_3.rect t)).set ↔ _
  rw [View.set_slice_whole, Rect.mem_set_unit]
  exact Iff.rfl

/-- The weight array after the region. -/
theorem final (c : Dev nD) : (dat1 V c).arrAt 3 cfg1.N = G V c :=
  (dat1 V c).arrAt_eq_of_cover 3 (G V c) (fun t _ => flushed_eq V c t) fun i => by
    have hi0 : (i 0).val < 256 := (i 0).isLt
    have hi1 : (i 1).val < 2000 := (i 1).isLt
    obtain ⟨-, -, -, -, -, -, e6, e7⟩ := idx_facts t1_0
    refine ⟨t1_0, flush1_3 t1_0, ?_⟩
    rw [mem_blk]
    intro a
    match a with
    | ⟨0, _⟩ => show win1_3.index t1_0 (0 : Fin 2) * 256 ≤ (i 0).val ∧ (i 0).val < win1_3.index t1_0 (0 : Fin 2) * 256 + 256; rw [e6]; omega
    | ⟨1, _⟩ => show win1_3.index t1_0 (1 : Fin 2) * 2000 ≤ (i 1).val ∧ (i 1).val < win1_3.index t1_0 (1 : Fin 2) * 2000 + 2000; rw [e7]; omega

end Cert.KernelIdeal.Region1

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Region2.lean ====
/-
  The third kernel region: the attention weights times the memory, one column block at a time.

  The grid has 32 points; point `t` reads the whole weight array `[256, 2000]` and columns `1024 t … 1024 t + 1023` of the
  memory `[2000, 32768]`, and writes the `[256, 1024]` block of the result at the same columns: the product of the weights
  with that column block, which at `(p, q)` is the sum over the 2000 memory rows `k` of `W (p, k) · Y (k, 1024 t + q)`
  (the change of float format on the way into the product is the identity on the extended reals). The blocks tile the
  result, so after the region the result array at `(b, d)` is `Σ_k W (b, k) · Y (k, d)`, for any contents `V` the region is
  entered with.
-/
import proofs.«116774_j71399536329100_2_alg».proof.Proof.Gen.KernelIdeal.Frame
import proofs.«116774_j71399536329100_2_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at `(p, q)`: row `p` of the weights against column `q` of the memory block. -/
theorem pay_apply (x0 : Vec Ideal S256x2000 .f32) (x1 : Vec Ideal S2000x1024 .f32) (p : Fin 256) (q : Fin 1024) :
    k2_pay1 (F := Ideal) x0 x1 (ix2 p q) = ∑ k : Fin 2000, x0 (ix2 p k) * x1 (ix2 k q) := by
  unfold k2_pay1
  rw [shapeCast_self]
  show FloatOps.matmul (Cert.Lib.matDot dot_S256x2000_S2000x1024_S256x1024_1_0_0_1_n_n_wf) none
      _ _ (constant (F := Ideal) ⟨2, ![256, 1024]⟩ .f32 0x00000000#32) (ix2 p q) = _
  rw [Cert.Lib.matmul_plain_zero_apply]
  rfl

/-- The same at any index of the block. -/
theorem pay_at (x0 : Vec Ideal S256x2000 .f32) (x1 : Vec Ideal S2000x1024 .f32) (j : S256x1024.Idx) :
    k2_pay1 (F := Ideal) x0 x1 j = ∑ k : Fin 2000, x0 (ix2 (j 0) k) * x1 (ix2 k (j 1)) := by
  obtain ⟨p, q, rfl⟩ : ∃ (p : Fin 256) (q : Fin 1024), j = ix2 p q := ⟨j 0, j 1, eq_ix2 j⟩
  exact pay_apply x0 x1 p q

/-- The result array after the region, as a function of the weight array and the memory: the product, index by index. -/
abbrev G (Wt : S256x2000.Idx → EReal) (Mem : S2000x32768.Idx → EReal) : S256x32768.Idx → EReal :=
  fun i => ∑ k : Fin 2000, Wt (ix2 (i 0) k) * Mem (ix2 k (i 1))

/-- The printed index maps over the grid: the weights' block never moves, the memory's and the result's column block is
    the point's number. -/
theorem idx_facts : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- The weights' block at any point is the whole weight array. -/
theorem blk0_read (c : Dev nD) (t : Fin cfg2.N) (y : S256x2000.Idx) :
    (iblk2 V c 0 t : Vec Ideal S256x2000 .f32) y = V c main_v4 y := by
  obtain ⟨e0, e1, -, -, -, -⟩ := idx_facts t
  unfold iblk2
  rw [View.read_apply]
  show V c main_v4 (((cfg2.win 0).blk t).view.emb y) = V c main_v4 y
  refine congrArg _ (funext fun a => Fin.ext ?_)
  match a with
  | ⟨0, _⟩ => show win2_0.index t (0 : Fin 2) * 256 + 1 * (y 0).val = (y 0).val; rw [e0]; omega
  | ⟨1, _⟩ => show win2_0.index t (1 : Fin 2) * 2000 + 1 * (y 1).val = (y 1).val; rw [e1]; omega

/-- Column `q` of the memory's block at point `t` is column `1024 t + q` of the memory. -/
theorem blk1_read (c : Dev nD) (t : Fin cfg2.N) (y : S2000x1024.Idx) (i : S2000x32768.Idx)
    (h0 : (i 0).val = (y 0).val) (h1 : (i 1).val = t.val * 1024 + (y 1).val) :
    (iblk2 V c 1 t : Vec Ideal S2000x1024 .f32) y = V c main_arg1 i := by
  obtain ⟨-, -, e2, e3, -, -⟩ := idx_facts t
  unfold iblk2
  rw [View.read_apply]
  show V c main_arg1 (((cfg2.win 1).blk t).view.emb y) = V c main_arg1 i
  refine congrArg _ (funext fun a => Fin.ext ?_)
  match a with
  | ⟨0, _⟩ => show win2_1.index t (0 : Fin 2) * 2000 + 1 * (y 0).val = (i 0).val; rw [e2, h0]; omega
  | ⟨1, _⟩ => show win2_1.index t (1 : Fin 2) * 1024 + 1 * (y 1).val = (i 1).val; rw [e3, h1]; omega

/-- What point `t` writes back is block `t` of the product of the weight array and the memory as the region finds them. -/
theorem flushed_eq (c : Dev nD) (t : Fin cfg2.N) :
    (dat2 V c).flushed 2 t = ((cfg2.win 2).blk t).view.read (Elt Ideal) (G (V c main_v4) (V c main_arg1)) := by
  show (cfg2.win 2).cut (grid2.coords t) ((dat2 V c).after 2 t) = _
  rw [after2_2]
  unfold out2_2
  rw [View.canon_unit_zero hz]
  simp only [View.ld_unit_zero (S := S256x2000) hz, View.ld_unit_zero (S := S2000x1024) hz]
  obtain ⟨-, -, -, -, e4, e5⟩ := idx_facts t
  funext j
  show k2_pay1 (F := Ideal) (iblk2 V c 0 t) (iblk2 V c 1 t) j = G (V c main_v4) (V c main_arg1) (((cfg2.win 2).blk t).view.emb j)
  refine (pay_at _ _ j).trans ?_
  refine Finset.sum_congr rfl fun k _ => ?_
  have hr : ((((cfg2.win 2).blk t).view.emb j) 0 : Fin 256).val = (j 0).val := by
    show win2_2.index t (0 : Fin 2) * 256 + 1 * (j 0).val = (j 0).val; rw [e4]; omega
  have hc : ((((cfg2.win 2).blk t).view.emb j) 1 : Fin 32768).val = t.val * 1024 + (j 1).val := by
    show win2_2.index t (1 : Fin 2) * 1024 + 1 * (j 1).val = _; rw [e5]; omega
  rw [blk0_read V c t, blk1_read V c t (ix2 k (j 1)) (ix2 k ((((cfg2.win 2).blk t).view.emb j) 1)) rfl hc]
  refine congrArg (· * _) (congrArg _ (funext fun a => Fin.ext ?_))
  match a with
  | ⟨0, _⟩ => exact hr.symm
  | ⟨1, _⟩ => rfl

/-- An index of the result is in point `t`'s block iff each coordinate is in the block's range on its axis. -/
theorem mem_blk (t : Fin cfg2.N) (i : S256x32768.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v5).slice (win2_2.rect t)).set ↔ _
  rw [View.set_slice_whole, Rect.mem_set_unit]
  exact Iff.rfl

/-- The result array after the region: the product of the weight array and the memory, index by index. -/
theorem final (c : Dev nD) : (dat2 V c).arrAt 2 cfg2.N = G (V c main_v4) (V c main_arg1) :=
  (dat2 V c).arrAt_eq_of_cover 2 (G (V c main_v4) (V c main_arg1)) (fun t _ => flushed_eq V c t) fun i => by
    have hN : cfg2.N = 32 := N_2
    have hi0 : (i 0).val < 256 := (i 0).isLt
    have hi1 : (i 1).val < 32768 := (i 1).isLt
    let t : Fin cfg2.N := ⟨(i 1).val / 1024, by rw [hN]; omega⟩
    obtain ⟨-, -, -, -, e4, e5⟩ := idx_facts t
    refine ⟨t, flush2_2 t, ?_⟩
    rw [mem_blk]
    intro a
    match a with
    | ⟨0, _⟩ => show win2_2.index t (0 : Fin 2) * 256 ≤ (i 0).val ∧ (i 0).val < win2_2.index t (0 : Fin 2) * 256 + 256; rw [e4]; omega
    | ⟨1, _⟩ => show win2_2.index t (1 : Fin 2) * 1024 ≤ (i 1).val ∧ (i 1).val < win2_2.index t (1 : Fin 2) * 1024 + 1024
                rw [e5]; show (i 1).val / 1024 * 1024 ≤ (i 1).val ∧ (i 1).val < (i 1).val / 1024 * 1024 + 1024; omega

end Cert.KernelIdeal.Region2

end
-- ==== Proof.Boundaries.lean ====
/-
  The buffers at the boundaries between the program's segments.

  The program is: a reshape of the feature to `[256, 32768]`; the first region (the three running sums); a transpose of the raw
  inner products to `[256, 2000]` and a slice of column 0 of the feature rows' sums of squares; the second region (the softmax
  pipeline); the third region (the weights applied to the memory); a reshape of the result to `[256, 512, 8, 8]`. Each lemma
  reads one buffer at one boundary from the boundary before: a host stretch applies its operations and leaves every other
  buffer alone, a region leaves in each output array what its write-backs leave and keeps its input arrays.
-/
import proofs.«116774_j71399536329100_2_alg».proof.Proof.Region0Final
import proofs.«116774_j71399536329100_2_alg».proof.Proof.Region1
import proofs.«116774_j71399536329100_2_alg».proof.Proof.Region2
import Idealize.ShloMosaic.Lib.StableHlo.Run

set_option maxRecDepth 16384

noncomputable section

namespace Cert.KernelIdeal.Bound

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Entering the first region -/

theorem V1_v0 (c : Dev nD) :
    V1 m ρ c main_v0 = shapeCast S256x32768 (m ((c : Thread nD τ).loc main_arg0)) shapeCasts_S256x512x8x8_S256x32768 := by
  show StableHlo.after hostOps0 (W0 m ρ c) (Proc.devRef .tc main_v0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl

/-! ## Leaving the first region -/

theorem V2_dot (c : Dev nD) : V2 m ρ c main_v1_0 = Region0.G2 (V1 m ρ) c :=
  (W2_arr m ρ c 2).trans (Region0.final2 (V1 m ρ) c)
theorem V2_msq (c : Dev nD) : V2 m ρ c main_v1_1 = Region0.G3 (V1 m ρ) c :=
  (W2_arr m ρ c 3).trans (Region0.final3 (V1 m ρ) c)
theorem V2_fsq (c : Dev nD) : V2 m ρ c main_v1_2 = Region0.G4 (V1 m ρ) c :=
  (W2_arr m ρ c 4).trans (Region0.final4 (V1 m ρ) c)
theorem V2_arg1 (c : Dev nD) : V2 m ρ c main_arg1 = V1 m ρ c main_arg1 :=
  (W2_arr m ρ c 1).trans (((dat0 (V1 m ρ) c).arrAt_in 1 rfl _).trans (A_eq0 (V1 m ρ) c 1))

/-! ## Entering the second region -/

theorem V3_dot (c : Dev nD) :
    V3 m ρ c main_v2 = transpose S256x2000 [1, 0] (V2 m ρ c main_v1_0) transposes_S2000x256_S256x2000_1_0 := by
  show StableHlo.after hostOps1 (W2 m ρ c) (Proc.devRef .tc main_v2) = _
  after_results <;> rfl
theorem V3_fsq (c : Dev nD) :
    V3 m ρ c main_v3 = extractStridedSlice S256x1 ![0, 0] (V2 m ρ c main_v1_2) slices_S256x256_S256x1_0_0 := by
  show StableHlo.after hostOps1 (W2 m ρ c) (Proc.devRef .tc main_v3) = _
  after_results <;> rfl
theorem V3_msq (c : Dev nD) : V3 m ρ c main_v1_1 = V2 m ρ c main_v1_1 := by
  show StableHlo.after hostOps1 (W2 m ρ c) (Proc.devRef .tc main_v1_1) = _
  after_results <;> rfl
theorem V3_arg1 (c : Dev nD) : V3 m ρ c main_arg1 = V2 m ρ c main_arg1 := by
  show StableHlo.after hostOps1 (W2 m ρ c) (Proc.devRef .tc main_arg1) = _
  after_results <;> rfl

/-! ## Leaving the second region, and the third -/

theorem V4_w (c : Dev nD) : V4 m ρ c main_v4 = Region1.G (V3 m ρ) c :=
  (W4_arr m ρ c 3).trans (Region1.final (V3 m ρ) c)
theorem V4_arg1 (c : Dev nD) : V4 m ρ c main_arg1 = V3 m ρ c main_arg1 :=
  W4_of_ne m ρ c main_arg1 (by decide)

theorem V5_out (c : Dev nD) : V5 m ρ c main_v5 = Region2.G (V4 m ρ c main_v4) (V4 m ρ c main_arg1) :=
  (W5_arr m ρ c 2).trans (Region2.final (V4 m ρ) c)
theorem V5_w (c : Dev nD) : V5 m ρ c main_v4 = V4 m ρ c main_v4 :=
  (W5_arr m ρ c 0).trans (((dat2 (V4 m ρ) c).arrAt_in 0 rfl _).trans (A_eq2 (V4 m ρ) c 0))

/-! ## After the last reshape -/

theorem W6_out (c : Dev nD) :
    W6 m ρ c (Proc.devRef .tc main_v6) = shapeCast S256x512x8x8 (V5 m ρ c main_v5) shapeCasts_S256x32768_S256x512x8x8 := by
  show StableHlo.after hostOps3 (W5 m ρ c) (Proc.devRef .tc main_v6) = _
  after_results <;> rfl
theorem W6_w (c : Dev nD) : W6 m ρ c (Proc.devRef .tc main_v4) = V5 m ρ c main_v4 := by
  show StableHlo.after hostOps3 (W5 m ρ c) (Proc.devRef .tc main_v4) = _
  after_results <;> rfl

/-- The memory reaches every region as launched. -/
theorem V4_mem (c : Dev nD) : V4 m ρ c main_arg1 = m ((c : Thread nD τ).loc main_arg1) :=
  (V4_arg1 m ρ c).trans ((V3_arg1 m ρ c).trans ((V2_arg1 m ρ c).trans (V1_arg1 m ρ c)))

end Cert.KernelIdeal.Bound

end
-- ==== Proof.Spec.lean ====
/-
  The mathematics both programs compute, stated once over plain coordinates and free of either program.

  Inputs: `X b d` (256 feature rows of 32768 entries) and `Y m d` (2000 memory rows of 32768 entries), extended reals.
  * `fsq X b`, `msq Y m`: a row's sum of squares; `dot X Y b m`: the raw inner product of a feature row and a memory row.
  * `nrm s = max (√s) ε`: a row's norm, clamped below by the positive constant `ε`.
  * The cosine similarity in two arrangements: `cosK` divides the raw inner product by the product of the two clamped
    norms; `cosR` first divides each row by its clamped norm and then takes the inner product. They agree when every
    entry is a real number (the law is proved elsewhere; it needs finiteness, since it moves a factor across a sum).
  * `softmax c`: along a row, `exp (c - rowmax) / Σ exp (c - rowmax)`, the row maximum a fold of `max` from `-∞`.
  * `shrink w`: `w` where `|w| > λ`, else `0`.
  * `weights c = softmax (shrink ∘ softmax c)`, and `out W Y b d = Σ_m W b m · Y m d`, the weights applied to the memory.
-/
import Idealize.ShloMosaic.PureOps.Ideal.Laws
import Idealize.ShloMosaic.Lib.ValueIdx

noncomputable section

namespace Cert.Spec

open Idealize.ShloMosaic

/-- The lower clamp on a norm: the f32 nearest to 1e-12. -/
def eps : EReal := Ideal.ofBits .f32 0x2B8CBCCC#32
/-- The hard-shrink threshold: the f32 nearest to 5e-4. -/
def lam : EReal := Ideal.ofBits .f32 0x3A03126F#32

/-- A rank-2 array read by its two coordinates. -/
def rows2 {a b : ℕ} (v : (⟨2, ![a, b]⟩ : Shape).Idx → EReal) : Fin a → Fin b → EReal := fun p q => v (ValueIdx.ix2 p q)

/-- The f32 pattern of minus infinity denotes the bottom of the extended reals. -/
theorem bot_word_f32 : Ideal.ofBits .f32 0xFF800000#32 = ⊥ := by simp [Ideal.ofBits, Ideal.ieee]

section
variable (X : Fin 256 → Fin 32768 → EReal) (Y : Fin 2000 → Fin 32768 → EReal)

/-- A feature row's sum of squares. -/
def fsq (b : Fin 256) : EReal := ∑ d : Fin 32768, X b d * X b d
/-- A memory row's sum of squares. -/
def msq (m : Fin 2000) : EReal := ∑ d : Fin 32768, Y m d * Y m d
/-- The raw inner product of feature row `b` and memory row `m`. -/
def dot (b : Fin 256) (m : Fin 2000) : EReal := ∑ d : Fin 32768, X b d * Y m d
/-- A norm from a sum of squares, clamped below by `eps`. -/
def nrm (s : EReal) : EReal := max (Ideal.sqrt s) eps

/-- Cosine similarity, dividing the raw inner product by the product of the clamped norms. -/
def cosK (b : Fin 256) (m : Fin 2000) : EReal := Ideal.div (dot X Y b m) (nrm (fsq X b) * nrm (msq Y m))
/-- Cosine similarity, as the inner product of the two normalised rows. -/
def cosR (b : Fin 256) (m : Fin 2000) : EReal :=
  ∑ d : Fin 32768, Ideal.div (X b d) (nrm (fsq X b)) * Ideal.div (Y m d) (nrm (msq Y m))
end

/-- A row's maximum: the fold of `max` from minus infinity. -/
def rowMax (c : Fin 256 → Fin 2000 → EReal) (b : Fin 256) : EReal :=
  (Finset.univ : Finset (Fin 2000)).fold max ⊥ (c b)

/-- Softmax along a row, shifted by the row's maximum. -/
def softmax (c : Fin 256 → Fin 2000 → EReal) (b : Fin 256) (m : Fin 2000) : EReal :=
  Ideal.div (Ideal.exp (c b m - rowMax c b)) (∑ m' : Fin 2000, Ideal.exp (c b m' - rowMax c b))

/-- Hard shrink: keep `w` where its absolute value exceeds `lam`, else zero. -/
def shrink (w : EReal) : EReal := Scalar.select (Ideal.cmp .ogt (max w (-w)) lam) w 0

/-- The attention weights: softmax, hard shrink, softmax again. -/
def weights (c : Fin 256 → Fin 2000 → EReal) : Fin 256 → Fin 2000 → EReal :=
  softmax (fun b m => shrink (softmax c b m))

/-- The weights applied to the memory rows. -/
def out (Y : Fin 2000 → Fin 32768 → EReal) (W : Fin 256 → Fin 2000 → EReal) (b : Fin 256) (d : Fin 32768) : EReal :=
  ∑ m : Fin 2000, W b m * Y m d

end Cert.Spec

end
-- ==== Proof.KernelTail.lean ====
/-
  The second kernel's body as one pure function, read at an index.

  The body takes the raw inner products `v0 : [256, 2000]` and the two columns of sums of squares
  (`v2 : [2000, 1]` for the memory rows, `v4 : [256, 1]` for the feature rows) and computes
  * the cosine: each inner product divided by the product of the two clamped norms, a norm being the maximum of the
    square root of a sum of squares and the positive constant `eps`;
  * then softmax along each row, hard shrink, softmax again.
  Every layout operation in between (a column broadcast along its unit axis, a column transposed to a row and that row
  broadcast over the rows, a vector of row results reshaped to a column) reads ONE element of its operand, so at the
  index `(b, m)` the whole body is the specification's `weights` of the cosine at `(b, m)`.

  The softmax step occurs twice; it is proved once, for an arbitrary input array, and used twice.
-/
import proofs.«116774_j71399536329100_2_alg».proof.Proof.Gen.KernelIdeal.Skeleton
import proofs.«116774_j71399536329100_2_alg».proof.Proof.Spec
import Idealize.ShloMosaic.Lib.ValueLayout
import Idealize.ShloMosaic.Lib.Pipeline.Value

noncomputable section

namespace Cert.KernelTail

open Idealize.ShloMosaic Idealize.ShloMosaic.ValueIdx Cert.KernelIdeal

/-! ## Column layouts read at an index -/

section Column
variable {α : Type}

/-- An `[a]` array cast to a column `[a, 1]` reads, at `(i, u)`, the operand at `i`. -/
theorem cast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

variable [Cert.KernelIdeal.Facts]
open Cert.KernelIdeal.Facts₀ Cert.KernelIdeal.Facts

/-- A vector of 256 row results, reshaped to a column and broadcast along the rows, reads the row's result everywhere
    in the row. -/
theorem keep_apply (x : FVec Ideal S256 .f32) (b : Fin 256) (m : Fin 2000) :
    broadcastTo S256x2000 (shapeCast S256x1 x shapeCasts_S256_S256x1) broadcasts_S256x1_S256x2000 (ix2 b m) = x (ix1 b) :=
  (bcast_col_apply _ broadcasts_S256x1_S256x2000 b m).trans (cast_col_apply x shapeCasts_S256_S256x1 b 0)

/-- The index a reduction over axis 1 reads: the row with the column inserted. -/
theorem lift_row (h : S256x2000.Reduces [1] S256) (b : Fin 256) (k : Fin 2000) : h.lift (ix1 b) k = ix2 b k := by
  funext a
  match a with
  | ⟨0, _⟩ => rfl
  | ⟨1, _⟩ => rfl

/-! ## One row reduction read at a row -/

/-- The row maximum: the reduction by `max` over axis 1, from the pattern of minus infinity, is the specification's
    fold of `max` from `⊥` over the row. -/
theorem rowMax_apply (c : FVec Ideal S256x2000 .f32) (h : S256x2000.Reduces [1] S256) (hφ : FKind.Formats .f32)
    (hacc : (0xFF800000#32 : BitVec 32) = FKind.maximumf.neutral .f32 hφ) (b : Fin 256) :
    multiReduction .maximumf [1] S256 c 0xFF800000#32 h hφ hacc (ix1 b) = Cert.Spec.rowMax (Cert.Spec.rows2 c) b := by
  refine (Ideal.multiReduction_maximumf_single c 0xFF800000#32 h hφ hacc (ix1 b)).trans ?_
  show (Finset.univ : Finset (Fin 2000)).fold max (Ideal.ofBits .f32 0xFF800000#32) (c ∘ h.lift (ix1 b))
    = (Finset.univ : Finset (Fin 2000)).fold max ⊥ (fun m => c (ix2 b m))
  rw [Cert.Spec.bot_word_f32]
  refine congrArg (fun f => (Finset.univ : Finset (Fin 2000)).fold max ⊥ f) ?_
  funext k
  exact congrArg c (lift_row h b k)

/-- The row sum: the reduction by `+` over axis 1 is the sum over the row. -/
theorem rowSum_apply (c : FVec Ideal S256x2000 .f32) (h : S256x2000.Reduces [1] S256) (hφ : FKind.Formats .f32)
    (hacc : (0x00000000#32 : BitVec 32) = FKind.add.neutral .f32 hφ) (b : Fin 256) :
    multiReduction .add [1] S256 c 0x00000000#32 h hφ hacc (ix1 b) = ∑ m : Fin 2000, c (ix2 b m) := by
  refine (Ideal.multiReduction_add_single c 0x00000000#32 h hφ hacc (ix1 b)).trans ?_
  show ∑ k : Fin 2000, c (h.lift (ix1 b) k) = ∑ m : Fin 2000, c (ix2 b m)
  exact Finset.sum_congr rfl fun k _ => congrArg c (lift_row h b k)

/-! ## The softmax step, for any input -/

/-- Softmax along each row, as the body computes it: the row maximum kept as a column and broadcast, subtracted;
    the exponential; the row sum kept as a column and broadcast; the quotient. -/
def smaxV (c : FVec Ideal S256x2000 .f32) : FVec Ideal S256x2000 .f32 :=
  have v19 : FVec Ideal S256 .f32 := multiReduction .maximumf [1] S256 c 0xFF800000#32 reduces_S256x2000_S256 (.inl rfl) rfl
  have v20 : FVec Ideal S256x1 .f32 := shapeCast S256x1 v19 shapeCasts_S256_S256x1
  have v21 : FVec Ideal S256x2000 .f32 := broadcastTo S256x2000 v20 broadcasts_S256x1_S256x2000
  have v22 : FVec Ideal S256x2000 .f32 := subf c v21
  have v23 : FVec Ideal S256x2000 .f32 := exp v22
  have v24 : FVec Ideal S256 .f32 := multiReduction .add [1] S256 v23 0x00000000#32 reduces_S256x2000_S256 (.inl rfl) rfl
  have v25 : FVec Ideal S256x1 .f32 := shapeCast S256x1 v24 shapeCasts_S256_S256x1
  have v26 : FVec Ideal S256x2000 .f32 := broadcastTo S256x2000 v25 broadcasts_S256x1_S256x2000
  divf v23 v26

/-- The softmax step read at `(b, m)` is the specification's softmax of the input read by coordinates. -/
theorem smaxV_apply (c : FVec Ideal S256x2000 .f32) (b : Fin 256) (m : Fin 2000) :
    smaxV c (ix2 b m) = Cert.Spec.softmax (Cert.Spec.rows2 c) b m := by
  -- the shifted exponential at any column of row `b`
  have hexp : ∀ m' : Fin 2000,
      exp (subf c (broadcastTo S256x2000 (shapeCast S256x1
          (multiReduction .maximumf [1] S256 c 0xFF800000#32 reduces_S256x2000_S256 (.inl rfl) rfl)
          shapeCasts_S256_S256x1) broadcasts_S256x1_S256x2000)) (ix2 b m')
        = Ideal.exp (c (ix2 b m') - Cert.Spec.rowMax (Cert.Spec.rows2 c) b) := fun m' =>
    congrArg (fun t => Ideal.exp (c (ix2 b m') - t))
      ((keep_apply _ b m').trans (rowMax_apply c reduces_S256x2000_S256 (.inl rfl) rfl b))
  show Ideal.div
      (exp (subf c (broadcastTo S256x2000 (shapeCast S256x1
          (multiReduction .maximumf [1] S256 c 0xFF800000#32 reduces_S256x2000_S256 (.inl rfl) rfl)
          shapeCasts_S256_S256x1) broadcasts_S256x1_S256x2000)) (ix2 b m))
      (broadcastTo S256x2000 (shapeCast S256x1
          (multiReduction .add [1] S256 (exp (subf c (broadcastTo S256x2000 (shapeCast S256x1
            (multiReduction .maximumf [1] S256 c 0xFF800000#32 reduces_S256x2000_S256 (.inl rfl) rfl)
            shapeCasts_S256_S256x1) broadcasts_S256x1_S256x2000))) 0x00000000#32 reduces_S256x2000_S256 (.inl rfl) rfl)
          shapeCasts_S256_S256x1) broadcasts_S256x1_S256x2000 (ix2 b m))
    = Ideal.div (Ideal.exp (c (ix2 b m) - Cert.Spec.rowMax (Cert.Spec.rows2 c) b))
        (∑ m' : Fin 2000, Ideal.exp (c (ix2 b m') - Cert.Spec.rowMax (Cert.Spec.rows2 c) b))
  rw [hexp m, keep_apply]
  refine congrArg (Ideal.div _) ((rowSum_apply _ reduces_S256x2000_S256 (.inl rfl) rfl b).trans ?_)
  exact Finset.sum_congr rfl fun m' _ => hexp m'

/-! ## The hard shrink -/

/-- The hard shrink as the body computes it: keep an entry whose absolute value exceeds the threshold, else zero. -/
def shrinkV (w : FVec Ideal S256x2000 .f32) : FVec Ideal S256x2000 .f32 :=
  have v28 : FVec Ideal S256x2000 .f32 := absf w
  have cst_8 : Ideal .f32 := Scalar.ofBits .f32 0x3A03126F#32
  have v29 : FVec Ideal S256x2000 .f32 := broadcast S256x2000 cst_8
  have v30 : IVec S256x2000 1 := cmpf .ogt v28 v29
  have cst_9 : Ideal .f32 := Scalar.ofBits .f32 0x00000000#32
  have v31 : FVec Ideal S256x2000 .f32 := broadcast S256x2000 cst_9
  select v30 w v31

/-- The hard shrink read at an index is the specification's `shrink` of the entry. -/
theorem shrinkV_apply (w : FVec Ideal S256x2000 .f32) (i : S256x2000.Idx) : shrinkV w i = Cert.Spec.shrink (w i) := by
  show Scalar.select (Ideal.cmp .ogt (max (w i) (-(w i))) (Ideal.ofBits .f32 0x3A03126F#32)) (w i)
      (Ideal.ofBits .f32 0x00000000#32) = _
  rw [Ideal.ofBits_zero_f32]
  rfl

/-! ## The cosine -/

/-- The cosine as the body computes it: the raw inner products divided by the product of the feature column's
    clamped norms, broadcast along the rows, and the memory column's clamped norms, transposed to a row and broadcast
    over the rows. -/
def cosV (v0 : Vec Ideal S256x2000 .f32) (v2 : Vec Ideal S2000x1 .f32) (v4 : Vec Ideal S256x1 .f32) :
    FVec Ideal S256x2000 .f32 :=
  have v1 : FVec Ideal S256x2000 .f32 := shapeCast S256x2000 v0 shapeCasts_S256x2000_S256x2000
  have v3 : FVec Ideal S2000x1 .f32 := shapeCast S2000x1 v2 shapeCasts_S2000x1_S2000x1
  have v5 : FVec Ideal S256x1 .f32 := shapeCast S256x1 v4 shapeCasts_S256x1_S256x1
  have v6 : FVec Ideal S2000x1 .f32 := sqrt v3
  have v7 : FVec Ideal S256x1 .f32 := sqrt v5
  have v8 : FVec Ideal S1x2000 .f32 := transpose S1x2000 [1, 0] v6 transposes_S2000x1_p1_0_S1x2000
  have cst : Ideal .f32 := Scalar.ofBits .f32 0x2B8CBCCC#32
  have v9 : FVec Ideal S256x1 .f32 := broadcast S256x1 cst
  have v10 : FVec Ideal S256x1 .f32 := maximumf v7 v9
  have v11 : FVec Ideal S256x1 .f32 := shapeCast S256x1 v10 shapeCasts_S256x1_S256x1
  have v12 : FVec Ideal S256x2000 .f32 := broadcastTo S256x2000 v11 broadcasts_S256x1_S256x2000
  have cst_5 : Ideal .f32 := Scalar.ofBits .f32 0x2B8CBCCC#32
  have v13 : FVec Ideal S1x2000 .f32 := broadcast S1x2000 cst_5
  have v14 : FVec Ideal S1x2000 .f32 := maximumf v8 v13
  have v15 : FVec Ideal S1x2000 .f32 := shapeCast S1x2000 v14 shapeCasts_S1x2000_S1x2000
  have v16 : FVec Ideal S256x2000 .f32 := broadcastTo S256x2000 v15 broadcasts_S1x2000_S256x2000
  have v17 : FVec Ideal S256x2000 .f32 := mulf v12 v16
  divf v1 v17

/-- The cosine read at `(b, m)`: the inner product there over the product of the two clamped norms. -/
theorem cosV_apply (v0 : Vec Ideal S256x2000 .f32) (v2 : Vec Ideal S2000x1 .f32) (v4 : Vec Ideal S256x1 .f32)
    (b : Fin 256) (m : Fin 2000) :
    cosV v0 v2 v4 (ix2 b m)
      = Ideal.div (v0 (ix2 b m)) (Cert.Spec.nrm (v4 (ix2 b 0)) * Cert.Spec.nrm (v2 (ix2 m 0))) := by
  unfold cosV
  simp only [shapeCast_self]
  rw [divf_apply, mulf_apply, bcast_col_apply, broadcastTo_1b_ab_apply, maximumf_apply, maximumf_apply,
    broadcast_apply, broadcast_apply, transpose_ix2_apply]
  rfl

/-! ## The whole body -/

/-- The body is the softmax step of the hard shrink of the softmax step of the cosine: the printed sequence of
    operations, regrouped. -/
theorem pay_eq (v0 : Vec Ideal S256x2000 .f32) (v2 : Vec Ideal S2000x1 .f32) (v4 : Vec Ideal S256x1 .f32) :
    Cert.KernelIdeal.Gen.k1_pay1 (F := Ideal) v0 v2 v4 = smaxV (shrinkV (smaxV (cosV v0 v2 v4))) := rfl

/-- THE BODY READ AT `(b, m)`: the specification's weights of the cosine. -/
theorem pay_apply (v0 : Vec Ideal S256x2000 .f32) (v2 : Vec Ideal S2000x1 .f32) (v4 : Vec Ideal S256x1 .f32)
    (b : Fin 256) (m : Fin 2000) :
    Cert.KernelIdeal.Gen.k1_pay1 (F := Ideal) v0 v2 v4 (ix2 b m)
      = Cert.Spec.weights (fun b m => Ideal.div (v0 (ix2 b m))
          (Cert.Spec.nrm (v4 (ix2 b 0)) * Cert.Spec.nrm (v2 (ix2 m 0)))) b m := by
  rw [pay_eq, smaxV_apply]
  unfold Cert.Spec.weights
  refine congrArg (fun c => Cert.Spec.softmax c b m) ?_
  funext b' m'
  show shrinkV (smaxV (cosV v0 v2 v4)) (ix2 b' m') = _
  rw [shrinkV_apply, smaxV_apply]
  refine congrArg (fun c => Cert.Spec.shrink (Cert.Spec.softmax c b' m')) ?_
  funext b'' m''
  exact cosV_apply v0 v2 v4 b'' m''

end Cert.KernelTail

end
-- ==== Proof.KernelValue.lean ====
/-
  The idealized kernel's two results, as the specification's functions of the inputs.

  With `X` the feature reshaped to `[256, 32768]` and `Y` the memory: the first region leaves the raw inner products
  `Σ_d Y (m, d) · X (b, d)` (transposed by the host to `(b, m)`: `Spec.dot X Y b m`, the product commuted) and the two rows'
  sums of squares (`Spec.msq Y m`; `Spec.fsq X b`, of which the host keeps column 0); the second region's body divides the
  former by the product of the clamped norms — `Spec.cosK X Y` — and applies softmax, hard shrink, softmax: the weights
  `Spec.weights (Spec.cosK X Y)`, the program's second result; the third region multiplies them with the memory,
  `Spec.out Y …`, which the host reshapes to `[256, 512, 8, 8]`: the first result.
-/
import proofs.«116774_j71399536329100_2_alg».proof.Proof.Boundaries
import proofs.«116774_j71399536329100_2_alg».proof.Proof.KernelTail
import proofs.«116774_j71399536329100_2_alg».proof.Proof.Spec
import Idealize.ShloMosaic.Lib.ValueLayout

set_option maxRecDepth 16384

noncomputable section

namespace Cert.KernelIdeal.Val

open Cert.KernelIdeal Cert.KernelIdeal.Gen Cert.KernelIdeal.Bound
open Idealize.ShloMosaic Idealize.ShloMosaic.TcCoe Idealize.ShloMosaic.ValueIdx Idealize.SL.Sem

variable (m : (ℓ : Loc nD τ sig) → Buf (Elt Ideal) ℓ) (ρ : Dev nD → PrngReg)

/-- The feature reshaped to `[256, 32768]`, by coordinates. -/
abbrev X (c : Dev nD) : Fin 256 → Fin 32768 → EReal :=
  Cert.Spec.rows2 (a := 256) (b := 32768) (shapeCast S256x32768 (m ((c : Thread nD τ).loc main_arg0)) shapeCasts_S256x512x8x8_S256x32768)
/-- The memory, by coordinates. -/
abbrev Y (c : Dev nD) : Fin 2000 → Fin 32768 → EReal :=
  Cert.Spec.rows2 (a := 2000) (b := 32768) (m ((c : Thread nD τ).loc main_arg1))

/-- The transposed raw inner products the second region reads. -/
theorem dot_apply (c : Dev nD) (b : Fin 256) (mm : Fin 2000) :
    V3 m ρ c main_v2 (ix2 b mm) = Cert.Spec.dot (X m c) (Y m c) b mm := by
  rw [V3_dot, transpose_ix2_apply, V2_dot]
  show Region0.D2 (V1 m ρ) c mm b = _
  unfold Region0.D2 Cert.Spec.dot
  refine Finset.sum_congr rfl fun d _ => ?_
  unfold Region0.ye Region0.xe
  rw [V1_arg1, V1_v0]
  exact mul_comm _ _

/-- Column 0 of the feature rows' sums of squares. -/
theorem fsq_apply (c : Dev nD) (b : Fin 256) :
    V3 m ρ c main_v3 (ix2 b (0 : Fin 1)) = Cert.Spec.fsq (X m c) b := by
  rw [V3_fsq, extractStridedSlice_apply ![0, 0] _ _ (ix2 b (0 : Fin 1)) (ix2 b (0 : Fin 256))
    (fun a => match a with | ⟨0, _⟩ => (Nat.zero_add _).symm | ⟨1, _⟩ => rfl), V2_fsq]
  show Region0.D4 (V1 m ρ) c b = _
  unfold Region0.D4 Cert.Spec.fsq
  refine Finset.sum_congr rfl fun d _ => ?_
  unfold Region0.xe
  rw [V1_v0]
  rfl

/-- The memory rows' sums of squares. -/
theorem msq_apply (c : Dev nD) (mm : Fin 2000) :
    V3 m ρ c main_v1_1 (ix2 mm (0 : Fin 1)) = Cert.Spec.msq (Y m c) mm := by
  rw [V3_msq, V2_msq]
  show Region0.D3 (V1 m ρ) c mm = _
  unfold Region0.D3 Cert.Spec.msq
  refine Finset.sum_congr rfl fun d _ => ?_
  unfold Region0.ye
  rw [V1_arg1]
  rfl

/-- The attention weights the second region leaves. -/
theorem w_at (c : Dev nD) (b : Fin 256) (mm : Fin 2000) :
    V4 m ρ c main_v4 (ix2 b mm) = Cert.Spec.weights (Cert.Spec.cosK (X m c) (Y m c)) b mm := by
  rw [V4_w]
  show k1_pay1 (F := Ideal) (V3 m ρ c main_v2) (V3 m ρ c main_v1_1) (V3 m ρ c main_v3) (ix2 b mm) = _
  rw [Cert.KernelTail.pay_apply]
  refine congrArg (fun f => Cert.Spec.weights f b mm) (funext fun b' => funext fun m' => ?_)
  unfold Cert.Spec.cosK
  rw [dot_apply, fsq_apply, msq_apply]

/-- The program's second result: the attention weights. -/
theorem result_w (c : Dev nD) :
    W6 m ρ c (Proc.devRef .tc main_v4) = fun i : S256x2000.Idx => Cert.Spec.weights (Cert.Spec.cosK (X m c) (Y m c)) (i 0) (i 1) := by
  rw [W6_w, V5_w]
  funext i
  obtain ⟨b, mm, rfl⟩ : ∃ (b : Fin 256) (mm : Fin 2000), i = ix2 b mm := ⟨i 0, i 1, eq_ix2 i⟩
  exact w_at m ρ c b mm

/-- The third region's result before the last reshape: the weights applied to the memory. -/
abbrev outArr (c : Dev nD) : S256x32768.Idx → EReal :=
  fun i => Cert.Spec.out (Y m c) (Cert.Spec.weights (Cert.Spec.cosK (X m c) (Y m c))) (i 0) (i 1)

/-- The program's first result: that array reshaped to `[256, 512, 8, 8]`. -/
theorem result_out (c : Dev nD) :
    W6 m ρ c (Proc.devRef .tc main_v6) = shapeCast S256x512x8x8 (outArr m c) shapeCasts_S256x32768_S256x512x8x8 := by
  rw [W6_out, V5_out]
  refine congrArg (fun v => shapeCast S256x512x8x8 v shapeCasts_S256x32768_S256x512x8x8) (funext fun i => ?_)
  obtain ⟨b, d, rfl⟩ : ∃ (b : Fin 256) (d : Fin 32768), i = ix2 b d := ⟨i 0, i 1, eq_ix2 i⟩
  show Region2.G (V4 m ρ c main_v4) (V4 m ρ c main_arg1) (ix2 b d)
      = Cert.Spec.out (Y m c) (Cert.Spec.weights (Cert.Spec.cosK (X m c) (Y m c))) b d
  unfold Cert.Spec.out
  refine Finset.sum_congr rfl fun k _ => ?_
  exact congrArg₂ (· * ·) (w_at m ρ c b k) (congrFun (V4_mem m ρ c) (ix2 k d))

end Cert.KernelIdeal.Val

end
-- ==== Proof.RefSpec.lean ====
/-
  The reference program read as the specification's mathematics.

  With `X` the feature reshaped to 256 rows of 32768 entries and `Y` the memory's 2000 rows, each stage of the
  reference is read at explicit coordinates: the two clamped row norms, the normalised rows, their inner products
  (the cosine similarity `Spec.cosR X Y`), then twice the same three stages — row maximum, exponential of the
  shifted entries, division by the row's sum — which are `Spec.softmax`, with the hard shrink between them; and the
  weights applied to the memory rows, `Spec.out`.
-/
import proofs.«116774_j71399536329100_2_alg».proof.Proof.Gen.ReferenceIdeal.Read
import proofs.«116774_j71399536329100_2_alg».proof.Proof.Spec

noncomputable section

namespace Cert.RefSpec

open Idealize.ShloMosaic Idealize.ShloMosaic.ValueIdx Cert.ReferenceIdeal Cert.ReferenceIdeal.Gen

variable (x0 : (⟨S256x512x8x8, .f32⟩ : BufTy).Contents (Elt Ideal)) (x1 : (⟨S2000x32768, .f32⟩ : BufTy).Contents (Elt Ideal))

local notation "X" => Cert.Spec.rows2 (Read.val_main_v0 (F := Ideal) x0)
local notation "Y" => Cert.Spec.rows2 x1

/-! ## The feature rows: sum of squares, clamped norm, normalised row -/

/-- The feature's row sums of squares. -/
theorem fsq_read (b : Fin 256) : Read.val_main_v2 (F := Ideal) x0 (ix1 b) = Cert.Spec.fsq X b := by
  rw [Read.val_main_v2_apply]
  show Ideal.ofBits .f32 0x00000000#32 + _ = _
  rw [Ideal.ofBits_zero_f32, zero_add]
  unfold Cert.Spec.fsq
  refine Finset.sum_congr rfl fun k _ => ?_
  have e : Read.idx_main_v2 (ix1 b) k = ix2 b k := funext fun a => by
    match a with
    | ⟨0, _⟩ => rfl
    | ⟨1, _⟩ => rfl
  rw [e]
  rfl

/-- The feature's clamped row norms. -/
theorem fnrm_read (b : Fin 256) (z : Fin 1) :
    Read.val_main_v6 (F := Ideal) x0 (ix2 b z) = Cert.Spec.nrm (Cert.Spec.fsq X b) := by
  have e3 : Read.idx_main_v3 (ix2 b z) = ix1 b := funext fun a => by
    match a with
    | ⟨0, _⟩ => rfl
  rw [Read.val_main_v6_apply, Read.val_main_v4_apply, Read.val_main_v3_apply, e3, fsq_read, Read.val_main_v5_apply,
    Read.val_main_cst_0_apply, Ideal.maximumf_def, Ideal.hostUnary_sqrt_def, Ideal.ofBits_def]
  rfl

/-- The normalised feature rows. -/
theorem fn_read (b : Fin 256) (d : Fin 32768) :
    Read.val_main_v8 (F := Ideal) x0 (ix2 b d) = Ideal.div (X b d) (Cert.Spec.nrm (Cert.Spec.fsq X b)) := by
  have e7 : Read.idx_main_v7 (ix2 b d) = ix2 b (0 : Fin 1) := funext fun a => by
    match a with
    | ⟨0, _⟩ => rfl
    | ⟨1, _⟩ => rfl
  rw [Read.val_main_v8_apply, Read.val_main_v7_apply, e7, fnrm_read, Ideal.hostDivf_def]
  rfl

/-! ## The memory rows, likewise -/

/-- The memory's row sums of squares. -/
theorem msq_read (m : Fin 2000) : Read.val_main_v10 (F := Ideal) x1 (ix1 m) = Cert.Spec.msq Y m := by
  rw [Read.val_main_v10_apply]
  show Ideal.ofBits .f32 0x00000000#32 + _ = _
  rw [Ideal.ofBits_zero_f32, zero_add]
  unfold Cert.Spec.msq
  refine Finset.sum_congr rfl fun k _ => ?_
  have e : Read.idx_main_v10 (ix1 m) k = ix2 m k := funext fun a => by
    match a with
    | ⟨0, _⟩ => rfl
    | ⟨1, _⟩ => rfl
  rw [e]
  rfl

/-- The memory's clamped row norms. -/
theorem mnrm_read (m : Fin 2000) (z : Fin 1) :
    Read.val_main_v14 (F := Ideal) x1 (ix2 m z) = Cert.Spec.nrm (Cert.Spec.msq Y m) := by
  have e11 : Read.idx_main_v11 (ix2 m z) = ix1 m := funext fun a => by
    match a with
    | ⟨0, _⟩ => rfl
  rw [Read.val_main_v14_apply, Read.val_main_v12_apply, Read.val_main_v11_apply, e11, msq_read, Read.val_main_v13_apply,
    Read.val_main_cst_2_apply, Ideal.maximumf_def, Ideal.hostUnary_sqrt_def, Ideal.ofBits_def]
  rfl

/-- The normalised memory rows. -/
theorem mn_read (m : Fin 2000) (d : Fin 32768) :
    Read.val_main_v16 (F := Ideal) x1 (ix2 m d) = Ideal.div (Y m d) (Cert.Spec.nrm (Cert.Spec.msq Y m)) := by
  have e15 : Read.idx_main_v15 (ix2 m d) = ix2 m (0 : Fin 1) := funext fun a => by
    match a with
    | ⟨0, _⟩ => rfl
    | ⟨1, _⟩ => rfl
  rw [Read.val_main_v16_apply, Read.val_main_v15_apply, e15, mnrm_read, Ideal.hostDivf_def]
  rfl

/-! ## The cosine similarity -/

/-- The inner products of the normalised rows are the cosine similarity. -/
theorem cos_read (b : Fin 256) (m : Fin 2000) :
    Read.val_main_v17 (F := Ideal) x0 x1 (ix2 b m) = Cert.Spec.cosR X Y b m := by
  rw [Read.val_main_v17_apply]
  unfold Cert.Spec.cosR
  refine Finset.sum_congr rfl fun k _ => ?_
  have el : Read.lidx_main_v17 (ix2 b m) k = ix2 b k := funext fun a => by
    match a with
    | ⟨0, _⟩ => rfl
    | ⟨1, _⟩ => rfl
  have er : Read.ridx_main_v17 (ix2 b m) k = ix2 m k := funext fun a => by
    match a with
    | ⟨0, _⟩ => rfl
    | ⟨1, _⟩ => rfl
  rw [el, er, fn_read, mn_read]

/-! ## A row maximum, and a softmax assembled from its stages -/

/-- The reduction by maximum over the second axis, from the word of minus infinity, is the row's maximum. -/
theorem rowMax_read (c : FVec Ideal S256x2000 .f32) (b : Fin 256) :
    Host.reduce FloatOps.maximumf c (constant (F := Ideal) S_ .f32 0xFF800000#32) reducesTo_S256x2000_S256_d1 h_S_ (ix1 b)
      = Cert.Spec.rowMax (Cert.Spec.rows2 c) b := by
  have h : S256x2000.Reduces [1] S256 := by decide
  rw [Host.reduce_eq_fold_single FloatOps.maximumf c _ reducesTo_S256x2000_S256_d1 h h_S_]
  have hf : (c ∘ h.lift (ix1 b)) = fun k : Fin 2000 => Cert.Spec.rows2 c b k := funext fun k => congrArg c (funext fun a => Fin.ext (by
    match a with
    | ⟨0, _⟩ => rfl
    | ⟨1, _⟩ => rfl))
  refine (congrArg (fun f => Finset.fold max (Ideal.ofBits .f32 0xFF800000#32) f (Finset.univ : Finset (Fin 2000))) hf).trans ?_
  rw [Cert.Spec.bot_word_f32]
  rfl

/-- Softmax from its stages: the shift `mx` (the row maximum, taken once more against minus infinity), the
    exponentials `e`, their row sums `sm` (from zero), and the quotients `w`. -/
theorem softmax_of_stages (c e w : Fin 256 → Fin 2000 → EReal) (mx sm : Fin 256 → EReal)
    (hmx : ∀ b, mx b = max ⊥ (Cert.Spec.rowMax c b))
    (he : ∀ b m, e b m = Ideal.exp (c b m - mx b))
    (hsm : ∀ b, sm b = 0 + ∑ m, e b m)
    (hw : ∀ b m, w b m = Ideal.div (e b m) (sm b)) (b : Fin 256) (m : Fin 2000) :
    w b m = Cert.Spec.softmax c b m := by
  unfold Cert.Spec.softmax
  rw [hw, hsm, zero_add]
  simp only [he, hmx, max_bot_left]

/-! ## The first softmax, of the cosine similarity -/

/-- The first row maximum. -/
theorem sm1_max_read (b : Fin 256) :
    Read.val_main_v18 (F := Ideal) x0 x1 (ix1 b) = Cert.Spec.rowMax (Cert.Spec.cosR X Y) b := by
  have hc : Cert.Spec.rows2 (Read.val_main_v17 (F := Ideal) x0 x1) = Cert.Spec.cosR X Y :=
    funext fun b => funext fun m => cos_read x0 x1 b m
  exact (rowMax_read (Read.val_main_v17 (F := Ideal) x0 x1) b).trans (by rw [hc])

/-- That maximum, taken once more against minus infinity and copied along the row. -/
theorem sm1_shift_read (b : Fin 256) (m : Fin 2000) :
    Read.val_main_v22 (F := Ideal) x0 x1 (ix2 b m) = max ⊥ (Cert.Spec.rowMax (Cert.Spec.cosR X Y) b) := by
  have e2 : Read.idx_main_v22 (ix2 b m) = ix2 b (0 : Fin 1) := funext fun a => by
    match a with
    | ⟨0, _⟩ => rfl
    | ⟨1, _⟩ => rfl
  have e1 : Read.idx_main_v21 (ix2 b (0 : Fin 1)) = ix1 b := funext fun a => by
    match a with
    | ⟨0, _⟩ => rfl
  rw [Read.val_main_v22_apply, e2, Read.val_main_v21_apply, e1, Read.val_main_v20_apply, Read.val_main_v19_apply,
    Read.val_main_cst_4_apply, sm1_max_read, Ideal.maximumf_def, Ideal.ofBits_def, Cert.Spec.bot_word_f32]

/-- The exponentials of the shifted entries. -/
theorem sm1_exp_read (b : Fin 256) (m : Fin 2000) :
    Read.val_main_v24 (F := Ideal) x0 x1 (ix2 b m)
      = Ideal.exp ((Cert.Spec.cosR X Y) b m - max ⊥ (Cert.Spec.rowMax (Cert.Spec.cosR X Y) b)) := by
  rw [Read.val_main_v24_apply, Read.val_main_v23_apply, cos_read, sm1_shift_read, Ideal.hostUnary_exp_def, Ideal.subf_def]

/-- Their row sums, copied along the row. -/
theorem sm1_sum_read (b : Fin 256) (m : Fin 2000) :
    Read.val_main_v27 (F := Ideal) x0 x1 (ix2 b m)
      = 0 + ∑ k : Fin 2000, Read.val_main_v24 (F := Ideal) x0 x1 (ix2 b k) := by
  have e2 : Read.idx_main_v27 (ix2 b m) = ix2 b (0 : Fin 1) := funext fun a => by
    match a with
    | ⟨0, _⟩ => rfl
    | ⟨1, _⟩ => rfl
  have e1 : Read.idx_main_v26 (ix2 b (0 : Fin 1)) = ix1 b := funext fun a => by
    match a with
    | ⟨0, _⟩ => rfl
  rw [Read.val_main_v27_apply, e2, Read.val_main_v26_apply, e1, Read.val_main_v25_apply]
  show Ideal.ofBits .f32 0x00000000#32 + _ = _
  rw [Ideal.ofBits_zero_f32]
  refine congrArg (0 + ·) (Finset.sum_congr rfl fun k _ => ?_)
  have e : Read.idx_main_v25 (ix1 b) k = ix2 b k := funext fun a => by
    match a with
    | ⟨0, _⟩ => rfl
    | ⟨1, _⟩ => rfl
  rw [e]

/-- The first softmax. -/
theorem sm1_read (b : Fin 256) (m : Fin 2000) :
    Read.val_main_v28 (F := Ideal) x0 x1 (ix2 b m) = Cert.Spec.softmax (Cert.Spec.cosR X Y) b m :=
  softmax_of_stages (Cert.Spec.cosR X Y) (fun b m => Read.val_main_v24 (F := Ideal) x0 x1 (ix2 b m))
    (fun b m => Read.val_main_v28 (F := Ideal) x0 x1 (ix2 b m)) (fun b => max ⊥ (Cert.Spec.rowMax (Cert.Spec.cosR X Y) b))
    (fun b => 0 + ∑ k : Fin 2000, Read.val_main_v24 (F := Ideal) x0 x1 (ix2 b k))
    (fun _ => rfl) (sm1_exp_read x0 x1) (fun _ => rfl)
    (fun b m => by rw [Read.val_main_v28_apply, sm1_sum_read, Ideal.hostDivf_def]) b m

/-! ## The hard shrink -/

/-- Where the absolute value exceeds the threshold the entry is kept, elsewhere it is zero. -/
theorem shrink_read (b : Fin 256) (m : Fin 2000) :
    Read.val_main_v33 (F := Ideal) x0 x1 (ix2 b m)
      = (fun b m => Cert.Spec.shrink (Cert.Spec.softmax (Cert.Spec.cosR X Y) b m)) b m := by
  rw [Read.val_main_v33_apply, Read.val_main_v31_apply, Read.val_main_v29_apply, Read.val_main_v30_apply,
    Read.val_main_cst_6_apply, Read.val_main_v32_apply, Read.val_main_cst_7_apply, sm1_read, Ideal.ofBits_def, Ideal.ofBits_def,
    Ideal.ofBits_zero_f32]
  rfl

/-! ## The second softmax, of the shrunk weights -/

/-- The second row maximum. -/
theorem sm2_max_read (b : Fin 256) :
    Read.val_main_v34 (F := Ideal) x0 x1 (ix1 b) = Cert.Spec.rowMax (fun b m => Cert.Spec.shrink (Cert.Spec.softmax (Cert.Spec.cosR X Y) b m)) b := by
  have hc : Cert.Spec.rows2 (Read.val_main_v33 (F := Ideal) x0 x1) = fun b m => Cert.Spec.shrink (Cert.Spec.softmax (Cert.Spec.cosR X Y) b m) :=
    funext fun b => funext fun m => shrink_read x0 x1 b m
  exact (rowMax_read (Read.val_main_v33 (F := Ideal) x0 x1) b).trans (by rw [hc])

/-- That maximum, taken once more against minus infinity and copied along the row. -/
theorem sm2_shift_read (b : Fin 256) (m : Fin 2000) :
    Read.val_main_v38 (F := Ideal) x0 x1 (ix2 b m) = max ⊥ (Cert.Spec.rowMax (fun b m => Cert.Spec.shrink (Cert.Spec.softmax (Cert.Spec.cosR X Y) b m)) b) := by
  have e2 : Read.idx_main_v38 (ix2 b m) = ix2 b (0 : Fin 1) := funext fun a => by
    match a with
    | ⟨0, _⟩ => rfl
    | ⟨1, _⟩ => rfl
  have e1 : Read.idx_main_v37 (ix2 b (0 : Fin 1)) = ix1 b := funext fun a => by
    match a with
    | ⟨0, _⟩ => rfl
  rw [Read.val_main_v38_apply, e2, Read.val_main_v37_apply, e1, Read.val_main_v36_apply, Read.val_main_v35_apply,
    Read.val_main_cst_9_apply, sm2_max_read, Ideal.maximumf_def, Ideal.ofBits_def, Cert.Spec.bot_word_f32]

/-- The exponentials of the shifted entries. -/
theorem sm2_exp_read (b : Fin 256) (m : Fin 2000) :
    Read.val_main_v40 (F := Ideal) x0 x1 (ix2 b m)
      = Ideal.exp ((fun b m => Cert.Spec.shrink (Cert.Spec.softmax (Cert.Spec.cosR X Y) b m)) b m - max ⊥ (Cert.Spec.rowMax (fun b m => Cert.Spec.shrink (Cert.Spec.softmax (Cert.Spec.cosR X Y) b m)) b)) := by
  rw [Read.val_main_v40_apply, Read.val_main_v39_apply, shrink_read, sm2_shift_read, Ideal.hostUnary_exp_def, Ideal.subf_def]

/-- Their row sums, copied along the row. -/
theorem sm2_sum_read (b : Fin 256) (m : Fin 2000) :
    Read.val_main_v43 (F := Ideal) x0 x1 (ix2 b m)
      = 0 + ∑ k : Fin 2000, Read.val_main_v40 (F := Ideal) x0 x1 (ix2 b k) := by
  have e2 : Read.idx_main_v43 (ix2 b m) = ix2 b (0 : Fin 1) := funext fun a => by
    match a with
    | ⟨0, _⟩ => rfl
    | ⟨1, _⟩ => rfl
  have e1 : Read.idx_main_v42 (ix2 b (0 : Fin 1)) = ix1 b := funext fun a => by
    match a with
    | ⟨0, _⟩ => rfl
  rw [Read.val_main_v43_apply, e2, Read.val_main_v42_apply, e1, Read.val_main_v41_apply]
  show Ideal.ofBits .f32 0x00000000#32 + _ = _
  rw [Ideal.ofBits_zero_f32]
  refine congrArg (0 + ·) (Finset.sum_congr rfl fun k _ => ?_)
  have e : Read.idx_main_v41 (ix1 b) k = ix2 b k := funext fun a => by
    match a with
    | ⟨0, _⟩ => rfl
    | ⟨1, _⟩ => rfl
  rw [e]

/-- The second softmax. -/
theorem sm2_read (b : Fin 256) (m : Fin 2000) :
    Read.val_main_v44 (F := Ideal) x0 x1 (ix2 b m) = Cert.Spec.softmax (fun b m => Cert.Spec.shrink (Cert.Spec.softmax (Cert.Spec.cosR X Y) b m)) b m :=
  softmax_of_stages (fun b m => Cert.Spec.shrink (Cert.Spec.softmax (Cert.Spec.cosR X Y) b m)) (fun b m => Read.val_main_v40 (F := Ideal) x0 x1 (ix2 b m))
    (fun b m => Read.val_main_v44 (F := Ideal) x0 x1 (ix2 b m)) (fun b => max ⊥ (Cert.Spec.rowMax (fun b m => Cert.Spec.shrink (Cert.Spec.softmax (Cert.Spec.cosR X Y) b m)) b))
    (fun b => 0 + ∑ k : Fin 2000, Read.val_main_v40 (F := Ideal) x0 x1 (ix2 b k))
    (fun _ => rfl) (sm2_exp_read x0 x1) (fun _ => rfl)
    (fun b m => by rw [Read.val_main_v44_apply, sm2_sum_read, Ideal.hostDivf_def]) b m

/-! ## The two results -/

/-- The reference's second result is the attention weights. -/
theorem ref_w (b : Fin 256) (m : Fin 2000) :
    Read.val_main_v44 (F := Ideal) x0 x1 (ix2 b m) = Cert.Spec.weights (Cert.Spec.cosR X Y) b m :=
  sm2_read x0 x1 b m

/-- The reference's first result, before its final reshape, is the weights applied to the memory rows. -/
theorem ref_out (b : Fin 256) (d : Fin 32768) :
    Read.val_main_v45 (F := Ideal) x0 x1 (ix2 b d)
      = Cert.Spec.out Y (Cert.Spec.weights (Cert.Spec.cosR X Y)) b d := by
  rw [Read.val_main_v45_apply]
  unfold Cert.Spec.out
  refine Finset.sum_congr rfl fun k _ => ?_
  have el : Read.lidx_main_v45 (ix2 b d) k = ix2 b k := funext fun a => by
    match a with
    | ⟨0, _⟩ => rfl
    | ⟨1, _⟩ => rfl
  have er : Read.ridx_main_v45 (ix2 b d) k = ix2 k d := funext fun a => by
    match a with
    | ⟨0, _⟩ => rfl
    | ⟨1, _⟩ => rfl
  rw [el, er, ref_w]
  rfl

end Cert.RefSpec

end
-- ==== Proof.CosLaw.lean ====
/-
  The law joining the two arrangements of the cosine similarity.

  `cosR` divides each row by its clamped norm and then takes the inner product; `cosK` takes the raw inner product and
  divides it by the product of the two clamped norms. When every entry is a real number the two agree: a sum of squares
  of reals is a real `s ≥ 0`, its square root is the real square root, and the clamped norm `max (√s) ε` is a POSITIVE
  real (`ε` is one); division by a nonzero real is multiplication by its reciprocal, so both sides are coercions of
  reals, and in the reals `Σ_d (x_d / A) · (y_d / C) = (Σ_d x_d · y_d) / (A · C)`.

  (Finiteness is needed: with an infinite entry the factor `1 / A` cannot be moved across the sum.)
-/
import proofs.«116774_j71399536329100_2_alg».proof.Proof.Spec

noncomputable section

namespace Cert.CosLaw

open Idealize.ShloMosaic

/-! ## Coercions of finite sums -/

section Sums
variable {ι : Type*}

/-- The coercion of a finite sum of reals is the sum of the coercions. -/
theorem coe_sum (s : Finset ι) (f : ι → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

end Sums

/-! ## The clamp constant is a positive real -/

/-- The lower clamp `ε` is a positive real number. -/
theorem eps_real : ∃ e : ℝ, 0 < e ∧ Cert.Spec.eps = (e : EReal) := by
  have h : Cert.Spec.eps = ((9223372 * (2 : ℝ) ^ (-63 : ℤ) : ℝ) : EReal) := by
    simp [Cert.Spec.eps, Ideal.ofBits, Ideal.ieee, -EReal.coe_mul]
  exact ⟨_, by positivity, h⟩

/-! ## The clamped norm of a real row is a positive real -/

section Rows
variable {ι : Type*} [Fintype ι]

/-- A sum of products of reals, computed in the extended reals, is the coercion of the real sum. -/
theorem sum_mul_coe (x y : ι → ℝ) : ∑ d, (x d : EReal) * (y d : EReal) = ((∑ d, x d * y d : ℝ) : EReal) := by
  rw [coe_sum]
  exact Finset.sum_congr rfl fun d _ => (EReal.coe_mul _ _).symm

/-- The clamped norm of a row of reals is a positive real. -/
theorem nrm_real (x : ι → ℝ) : ∃ A : ℝ, 0 < A ∧ Cert.Spec.nrm (∑ d, (x d : EReal) * (x d : EReal)) = (A : EReal) := by
  obtain ⟨e, he, hε⟩ := eps_real
  have hs : (0 : ℝ) ≤ ∑ d, x d * x d := Finset.sum_nonneg fun d _ => mul_self_nonneg (x d)
  refine ⟨max (Real.sqrt (∑ d, x d * x d)) e, lt_max_of_lt_right he, ?_⟩
  rw [Cert.Spec.nrm, sum_mul_coe, Ideal.sqrt_coe, if_neg (not_lt.mpr hs), hε]
  exact (EReal.coe_strictMono.monotone.map_max).symm

/-- THE LAW over one pair of real rows: the inner product of the two normalised rows is the raw inner product over
    the product of the two clamped norms. -/
theorem cos_rows (x y : ι → ℝ) :
    ∑ d, Ideal.div (x d : EReal) (Cert.Spec.nrm (∑ d, (x d : EReal) * (x d : EReal)))
        * Ideal.div (y d : EReal) (Cert.Spec.nrm (∑ d, (y d : EReal) * (y d : EReal)))
      = Ideal.div (∑ d, (x d : EReal) * (y d : EReal))
          (Cert.Spec.nrm (∑ d, (x d : EReal) * (x d : EReal)) * Cert.Spec.nrm (∑ d, (y d : EReal) * (y d : EReal))) := by
  obtain ⟨A, hA, hnA⟩ := nrm_real x
  obtain ⟨C, hC, hnC⟩ := nrm_real y
  rw [hnA, hnC, ← EReal.coe_mul A C, Ideal.div_coe (mul_pos hA hC).ne', sum_mul_coe, ← EReal.coe_mul]
  have hterm : ∀ d, Ideal.div (x d : EReal) (A : EReal) * Ideal.div (y d : EReal) (C : EReal)
      = ((x d * (1 / A) * (y d * (1 / C)) : ℝ) : EReal) := fun d => by
    rw [Ideal.div_coe hA.ne', Ideal.div_coe hC.ne', ← EReal.coe_mul, ← EReal.coe_mul, ← EReal.coe_mul]
  rw [Finset.sum_congr rfl fun d _ => hterm d, ← coe_sum]
  refine congrArg _ ?_
  rw [Finset.sum_mul]
  refine Finset.sum_congr rfl fun d _ => ?_
  have hA' := hA.ne'
  have hC' := hC.ne'
  field_simp

end Rows

/-! ## The law on the two arrays -/

/-- When every entry of the feature rows and of the memory rows is a real number, the two arrangements of the
    cosine similarity agree. -/
theorem cos_eq (X : Fin 256 → Fin 32768 → EReal) (Y : Fin 2000 → Fin 32768 → EReal)
    (hX : ∀ b d, ∃ r : ℝ, X b d = (r : EReal)) (hY : ∀ m d, ∃ r : ℝ, Y m d = (r : EReal)) :
    Cert.Spec.cosR X Y = Cert.Spec.cosK X Y := by
  choose x hx using hX
  choose y hy using hY
  obtain rfl : X = fun b d => (x b d : EReal) := funext fun b => funext fun d => hx b d
  obtain rfl : Y = fun m d => (y m d : EReal) := funext fun m => funext fun d => hy m d
  funext b m
  exact cos_rows (x b) (y m)

end Cert.CosLaw

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.Finite.lean ====
/-
  Finiteness of the inputs, from the precondition.

  The precondition says that `all (|feature| < +∞) ∧ all (|memory| < +∞)` answers one. Each `all` is a reduction by `and` over
  every axis, so every entry passes its comparison, and an extended real whose absolute value is below `+∞` is a real
  number: every entry of both inputs is a real. This is what the law joining the two arrangements of the cosine needs.
-/
import proofs.«116774_j71399536329100_2_alg».proof.Pre_finite_inputs
import proofs.«116774_j71399536329100_2_alg».proof.Proof.LibRealEntries
import Idealize.ShloMosaic.Lib.ValueIdx
import Idealize.ShloMosaic.Lib.Affine

noncomputable section

namespace Cert.Finite

open Idealize.ShloMosaic Cert.Pre_finite_inputs

variable [Cert.Pre_finite_inputs.Facts]
open Cert.Pre_finite_inputs.Facts

instance : Subsingleton S_.Idx := ⟨fun a b => funext fun d => d.elim0⟩

/-- Under the precondition every entry of the feature and of the memory is a real. -/
theorem reals (a0 : FVec Ideal S256x512x8x8 .f32) (a1 : FVec Ideal S2000x32768 .f32)
    (h : Cert.Pre_finite_inputs.fn (F := Ideal) a0 a1 = fun _ => 1#1) : Cert.Lib.AllReal a0 ∧ Cert.Lib.AllReal a1 := by
  have h0 := congrFun h ValueIdx.ix0
  dsimp only [Cert.Pre_finite_inputs.fn] at h0
  obtain ⟨h1, h2⟩ := IntOp.andi_eq_one.mp h0
  exact ⟨Cert.Lib.allReal_of_all_abs_lt a0 _ (fun _ => rfl) _ _ h_S_ _ h1,
         Cert.Lib.allReal_of_all_abs_lt a1 _ (fun _ => rfl) _ _ h_S_ _ h2⟩

end Cert.Finite

end
-- ==== Proof.lean ====
/-
  Cosine-similarity memory attention: the kernel and its reference compute the same extended reals.

  Both programs take a feature `[256, 512, 8, 8]` (read as `X : [256, 32768]`) and a memory `Y : [2000, 32768]`, form the cosine
  similarity of every feature row with every memory row, apply softmax, a hard shrink and softmax again along the memory axis
  to get the weights `W : [256, 2000]`, and return `W · Y` (reshaped back) and `W`.

  The kernel does it in three regions: one streams both inputs once, accumulating block by block the raw inner products and
  the two rows' sums of squares; one divides the raw inner products by the product of the clamped norms and runs the softmax
  chain; one multiplies the weights with the memory, a column block at a time. Read on the extended reals this is
  `Spec.weights (Spec.cosK X Y)` and `Spec.out Y` of it. The reference normalises each row first and takes the inner product
  of the normalised rows, `Spec.cosR X Y`, then the same chain and the same product.

  The two arrangements of the cosine agree, `Σ_d (x_d / A) (y_d / C) = (Σ_d x_d y_d) / (A · C)`, when every entry is a real number
  and the clamped norms `A`, `C` are positive reals — this moves a factor across a sum, which fails at infinities, so the
  precondition (every input finite) is used here and only here. Everything else is regrouping of sums and reading layouts.

  The three frames are the generated ones (the reference's is its generated run with the results dropped); the ideal pass
  rewrote nothing, so the kernel's idealization claim is trivial.
-/
import proofs.«116774_j71399536329100_2_alg».proof.Defs
import proofs.«116774_j71399536329100_2_alg».proof.Proof.Gen.Kernel
import proofs.«116774_j71399536329100_2_alg».proof.Proof.Gen.Kernel.Skeleton
import proofs.«116774_j71399536329100_2_alg».proof.Proof.Gen.Kernel.Launch
import proofs.«116774_j71399536329100_2_alg».proof.Proof.Gen.Kernel.Points
import proofs.«116774_j71399536329100_2_alg».proof.Proof.Gen.Kernel.Frame
import proofs.«116774_j71399536329100_2_alg».proof.Proof.Gen.KernelIdeal
import proofs.«116774_j71399536329100_2_alg».proof.Proof.Gen.KernelIdeal.Skeleton
import proofs.«116774_j71399536329100_2_alg».proof.Proof.Gen.KernelIdeal.Launch
import proofs.«116774_j71399536329100_2_alg».proof.Proof.Gen.KernelIdeal.Points
import proofs.«116774_j71399536329100_2_alg».proof.Proof.Gen.KernelIdeal.Frame
import proofs.«116774_j71399536329100_2_alg».proof.Proof.Gen.ReferenceIdeal
import proofs.«116774_j71399536329100_2_alg».proof.Proof.Gen.ReferenceIdeal.Read
import proofs.«116774_j71399536329100_2_alg».proof.Proof.Gen.Pre_finite_inputs
import proofs.«116774_j71399536329100_2_alg».proof.Proof.KernelRun
import proofs.«116774_j71399536329100_2_alg».proof.Proof.KernelValue
import proofs.«116774_j71399536329100_2_alg».proof.Proof.RefSpec
import proofs.«116774_j71399536329100_2_alg».proof.Proof.CosLaw
import proofs.«116774_j71399536329100_2_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Under the precondition every entry of the reshaped feature and of the memory is a real. -/
theorem reals_of_pre (x0 : FVec Ideal Cert.ReferenceIdeal.S256x512x8x8 .f32) (x1 : FVec Ideal Cert.ReferenceIdeal.S2000x32768 .f32)
    (h : Cert.Pre_finite_inputs.fn (F := Ideal) x0 x1 = fun _ => 1#1) :
    (∀ b d, ∃ r : ℝ, Cert.Spec.rows2 (Cert.ReferenceIdeal.Read.val_main_v0 (F := Ideal) x0) b d = (r : EReal))
    ∧ (∀ mm d, ∃ r : ℝ, Cert.Spec.rows2 (a := 2000) (b := 32768) x1 mm d = (r : EReal)) := by
  obtain ⟨h0, h1⟩ := Cert.Finite.reals x0 x1 h
  exact ⟨fun b d => h0 _, fun mm d => h1 _⟩

/-- At the ideal instance the kernel's two result arrays end at `Spec.out Y (Spec.weights (Spec.cosK X Y))` (reshaped) and
    `Spec.weights (Spec.cosK X Y)`, the reference's at the same with `Spec.cosR X Y`, of arguments that agree; under the
    precondition the two cosines are one function. -/
theorem algebraic : Cert.algebraic_KernelIdeal_ReferenceIdeal := by
  intro m ρ m' ρ' hpre hagree
  refine ⟨_, _, (θ_run Cert.KernelIdeal.defs _ _).mono
      (fun r h c => ⟨(h c).1.trans (Cert.KernelIdeal.Val.result_out m ρ c), (h c).2.1.trans (Cert.KernelIdeal.Val.result_w m ρ c),
        (h c).2.2.1, (h c).2.2.2⟩)
      (Cert.KernelIdeal.Results.run_results (F := Ideal) m ρ), ?_⟩
  refine (θ_run Cert.ReferenceIdeal.defs _ _).mono (fun r h c => ?_) (Cert.ReferenceIdeal.Value.run (F := Ideal) m' ρ')
  obtain ⟨h46, h44, ha0, ha1⟩ := h c
  obtain ⟨hX, hY⟩ := reals_of_pre _ _ (hpre c)
  refine ⟨h46.trans ?_, h44.trans ?_, ha0, ha1⟩
  · rw [Cert.ReferenceIdeal.Read.val_main_v46_eq, (hagree c).1, (hagree c).2]
    unfold Cert.ReferenceIdeal.Read.val_main_v46
    refine congrArg (fun v => shapeCast _ v _) (funext fun i => ?_)
    obtain ⟨b, d, rfl⟩ : ∃ (b : Fin 256) (d : Fin 32768), i = ix2 b d := ⟨i 0, i 1, eq_ix2 i⟩
    rw [Cert.RefSpec.ref_out, Cert.CosLaw.cos_eq _ _ hX hY]
    rfl
  · rw [Cert.ReferenceIdeal.Read.val_main_v44_eq, (hagree c).1, (hagree c).2]
    funext i
    obtain ⟨b, mm, rfl⟩ : ∃ (b : Fin 256) (mm : Fin 2000), i = ix2 b mm := ⟨i 0, i 1, eq_ix2 i⟩
    rw [Cert.RefSpec.ref_w, Cert.CosLaw.cos_eq _ _ hX hY]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
